-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000 : Shape := ⟨1, ![50000]⟩
abbrev S2x800000 : Shape := ⟨2, ![2, 800000]⟩
abbrev S128x138 : Shape := ⟨2, ![128, 138]⟩
abbrev S128 : Shape := ⟨1, ![128]⟩
abbrev S96x128 : Shape := ⟨2, ![96, 128]⟩
abbrev S96 : Shape := ⟨1, ![96]⟩
abbrev S96x96 : Shape := ⟨2, ![96, 96]⟩
abbrev S256x96 : Shape := ⟨2, ![256, 96]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x138 : S_.BroadcastsInDim S128x138 (![] : Fin 0 → Fin S128x138.rank)
  reducesTo_S128x138_S_d0_1 : S128x138.ReducesTo [0, 1] S_
  bcast_S_S128 : S_.BroadcastsInDim S128 (![] : Fin 0 → Fin S128.rank)
  reducesTo_S128_S_d0 : S128.ReducesTo [0] S_
  bcast_S_S96x128 : S_.BroadcastsInDim S96x128 (![] : Fin 0 → Fin S96x128.rank)
  reducesTo_S96x128_S_d0_1 : S96x128.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S256x96 : S_.BroadcastsInDim S256x96 (![] : Fin 0 → Fin S256x96.rank)
  reducesTo_S256x96_S_d0_1 : S256x96.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256x96 .f32) (main_arg10 : FVec F S256 .f32) (main_v33 : IVec S_ 1) : IVec S_ 1 :=
  let main_v34 : FVec F S256x96 .f32 := Host.absf main_arg9
  let main_cst_12 : FVec F S_ .f32 := constant S_ .f32 0x7F800000#32
  let main_v35 : FVec F S256x96 .f32 := broadcastInDim S256x96 ![] bcast_S_S256x96 main_cst_12
  let main_v36 : IVec S256x96 1 := cmpf .olt main_v34 main_v35
  let main_c_13 : IVec S_ 1 := constantI S_ 1 1#1
  let main_v37 : IVec S_ 1 := (fun x v => Host.reduce IntOp.andi x v reducesTo_S256x96_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg6 : FVec F S96 .f32) (main_arg7 : FVec F S96x96 .f32) (main_arg8 : FVec F S96 .f32) (main_arg9 : FVec F S256x96 .f32) (main_arg10 : FVec F S256 .f32) (main_v13 : IVec S_ 1) (main_v16 : IVec S96x128 1) : IVec S_ 1 :=
  let main_c_5 : IVec S_ 1 := constantI S_ 1 1#1
  let main_v17 : IVec S_ 1 := (fun x v => Host.reduce IntOp.andi x v reducesTo_S96x128_S_d0_1 h_S_) main_v16 main_c_5
  let main_v18 : IVec S_ 1 := andi main_v13 main_v17
  let main_v19 : FVec F S96 .f32 := Host.absf main_arg6
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg7
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg8
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S50000 32) (main_arg2 : IVec S2x800000 32) (main_arg3 : FVec F S128x138 .f32) (main_arg4 : FVec F S128 .f32) (main_arg5 : FVec F S96x128 .f32) (main_arg6 : FVec F S96 .f32) (main_arg7 : FVec F S96x96 .f32) (main_arg8 : FVec F S96 .f32) (main_arg9 : FVec F S256x96 .f32) (main_arg10 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x138 .f32 := Host.absf main_arg3
  let main_cst_0 : FVec F S_ .f32 := constant S_ .f32 0x7F800000#32
  let main_v5 : FVec F S128x138 .f32 := broadcastInDim S128x138 ![] bcast_S_S128x138 main_cst_0
  let main_v6 : IVec S128x138 1 := cmpf .olt main_v4 main_v5
  let main_c_1 : IVec S_ 1 := constantI S_ 1 1#1
  let main_v7 : IVec S_ 1 := (fun x v => Host.reduce IntOp.andi x v reducesTo_S128x138_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S96x128 .f32 := Host.absf main_arg5
  let main_cst_4 : FVec F S_ .f32 := constant S_ .f32 0x7F800000#32
  let main_v15 : FVec F S96x128 .f32 := broadcastInDim S96x128 ![] bcast_S_S96x128 main_cst_4
  let main_v16 : IVec S96x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S50000 : Shape := ⟨1, ![50000]⟩
abbrev S2x800000 : Shape := ⟨2, ![2, 800000]⟩
abbrev S128x138 : Shape := ⟨2, ![128, 138]⟩
abbrev S128 : Shape := ⟨1, ![128]⟩
abbrev S96x128 : Shape := ⟨2, ![96, 128]⟩
abbrev S96 : Shape := ⟨1, ![96]⟩
abbrev S96x96 : Shape := ⟨2, ![96, 96]⟩
abbrev S256x96 : Shape := ⟨2, ![256, 96]⟩
abbrev S256 : Shape := ⟨1, ![256]⟩
abbrev S128x128 : Shape := ⟨2, ![128, 128]⟩
abbrev S128x10 : Shape := ⟨2, ![128, 10]⟩
abbrev S10x128 : Shape := ⟨2, ![10, 128]⟩
abbrev S1x128 : Shape := ⟨2, ![1, 128]⟩
abbrev S128x96 : Shape := ⟨2, ![128, 96]⟩
abbrev S1x96 : Shape := ⟨2, ![1, 96]⟩
abbrev S_ : Shape := ⟨0, ![]⟩
abbrev S50000x1 : Shape := ⟨2, ![50000, 1]⟩
abbrev S5000x128 : Shape := ⟨2, ![5000, 128]⟩
abbrev S5000x1 : Shape := ⟨2, ![5000, 1]⟩
abbrev S5000x10 : Shape := ⟨2, ![5000, 10]⟩
abbrev S5000x96 : Shape := ⟨2, ![5000, 96]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S256x128 : Shape := ⟨2, ![256, 128]⟩
abbrev S128x256 : Shape := ⟨2, ![128, 256]⟩
abbrev S1x256 : Shape := ⟨2, ![1, 256]⟩
abbrev S50000x256 : Shape := ⟨2, ![50000, 256]⟩
abbrev S5000x256 : Shape := ⟨2, ![5000, 256]⟩

abbrev nBuf : Space → Nat
  | .hbm => 79
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S50000, .i32⟩
  | .hbm, ⟨2, _⟩ => ⟨S2x800000, .i32⟩
  | .hbm, ⟨3, _⟩ => ⟨S128x138, .f32⟩
  | .hbm, ⟨4, _⟩ => ⟨S128, .f32⟩
  | .hbm, ⟨5, _⟩ => ⟨S96x128, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S256x96, .f32⟩
  | .hbm, ⟨10, _⟩ => ⟨S256, .f32⟩
  | .hbm, ⟨11, _⟩ => ⟨S128x128, .f32⟩
  | .hbm, ⟨12, _⟩ => ⟨S128x128, .f32⟩
  | .hbm, ⟨13, _⟩ => ⟨S128x128, .bf16⟩
  | .hbm, ⟨14, _⟩ => ⟨S128x10, .f32⟩
  | .hbm, ⟨15, _⟩ => ⟨S10x128, .f32⟩
  | .hbm, ⟨16, _⟩ => ⟨S10x128, .bf16⟩
  | .hbm, ⟨17, _⟩ => ⟨S1x128, .f32⟩
  | .hbm, ⟨18, _⟩ => ⟨S128x96, .f32⟩
  | .hbm, ⟨19, _⟩ => ⟨S128x96, .bf16⟩
  | .hbm, ⟨20, _⟩ => ⟨S1x96, .f32⟩
  | .hbm, ⟨21, _⟩ => ⟨S_, .i32⟩
  | .hbm, ⟨22, _⟩ => ⟨S_, .f32⟩
  | .hbm, ⟨23, _⟩ => ⟨S128x96, .f32⟩
  | .hbm, ⟨24, _⟩ => ⟨S96x128, .f32⟩
  | .hbm, ⟨25, _⟩ => ⟨S96x128, .bf16⟩
  | .hbm, ⟨26, _⟩ => ⟨S50000x1, .i32⟩
  | .hbm, ⟨27, _⟩ => ⟨S50000x128, .f32⟩
  | .hbm, ⟨28, _⟩ => ⟨S1x800000, .i32⟩
  | .hbm, ⟨29, _⟩ => ⟨S800000, .i32⟩
  | .hbm, ⟨30, _⟩ => ⟨S1x800000, .i32⟩
  | .hbm, ⟨31, _⟩ => ⟨S800000, .i32⟩
  | .hbm, ⟨32, _⟩ => ⟨S_, .f32⟩
  | .hbm, ⟨33, _⟩ => ⟨S800000, .f32⟩
  | .hbm, ⟨34, _⟩ => ⟨S_, .f32⟩
  | .hbm, ⟨35, _⟩ => ⟨S50000, .f32⟩
  | .hbm, ⟨36, _⟩ => ⟨S800000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .i1⟩
  | .hbm, ⟨44, _⟩ => ⟨S50000, .f32⟩
  | .hbm, ⟨45, _⟩ => ⟨S_, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S50000x1, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S_, .f32⟩
  | .hbm, ⟨70, _⟩ => ⟨S128, .f32⟩
  | .hbm, ⟨71, _⟩ => ⟨S1x128, .f32⟩
  | .hbm, ⟨72, _⟩ => ⟨S_, .i32⟩
  | .hbm, ⟨73, _⟩ => ⟨S_, .f32⟩
  | .hbm, ⟨74, _⟩ => ⟨S256x128, .f32⟩
  | .hbm, ⟨75, _⟩ => ⟨S128x256, .f32⟩
  | .hbm, ⟨76, _⟩ => ⟨S128x256, .bf16⟩
  | .hbm, ⟨77, _⟩ => ⟨S1x256, .f32⟩
  | .hbm, ⟨78, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S5000x1, .i32⟩
  | .local _ .vmem, ⟨3, _⟩ => ⟨S5000x1, .i32⟩
  | .local _ .vmem, ⟨4, _⟩ => ⟨S128x128, .bf16⟩
  | .local _ .vmem, ⟨5, _⟩ => ⟨S10x128, .bf16⟩
  | .local _ .vmem, ⟨6, _⟩ => ⟨S1x128, .f32⟩
  | .local _ .vmem, ⟨7, _⟩ => ⟨S128x96, .bf16⟩
  | .local _ .vmem, ⟨8, _⟩ => ⟨S1x96, .f32⟩
  | .local _ .vmem, ⟨9, _⟩ => ⟨S96x128, .bf16⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S128x256, .bf16⟩
  | .local _ .vmem, ⟨16, _⟩ => ⟨S1x256, .f32⟩
  | .local _ .vmem, ⟨17, _⟩ => ⟨S5000x256, .f32⟩
  | .local _ .vmem, ⟨18, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call0_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_7 : Ref sig .tc := ⟨.hbm, 68, rfl⟩
abbrev main_call2_v0 : Ref sig .tc := ⟨.hbm, 69, rfl⟩
abbrev main_v45 : Ref sig .tc := ⟨.hbm, 70, rfl⟩
abbrev main_v46 : Ref sig .tc := ⟨.hbm, 71, rfl⟩
abbrev main_c_8 : Ref sig .tc := ⟨.hbm, 72, rfl⟩
abbrev main_call3_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S128x138_S128x128_0_0 : S128x138.Slices ![0, 0] S128x128
  transposes_S128x128_S128x128_1_0 : S128x128.Transposes [1, 0] S128x128
  bitsLt_bf16_f32 : FTy.bits .bf16 < FTy.bits .f32
  slices_S128x138_S128x10_0_128 : S128x138.Slices ![0, 128] S128x10
  transposes_S128x10_S10x128_1_0 : S128x10.Transposes [1, 0] S10x128
  shapeCasts_S128_S1x128 : S128.ShapeCasts S1x128
  transposes_S96x128_S128x96_1_0 : S96x128.Transposes [1, 0] S128x96
  shapeCasts_S96_S1x96 : S96.ShapeCasts S1x96
  pads_S96x96_S128x96_0320_000 : S96x96.Pads (![0, 0] : Fin 2 → Nat) ![32, 0] ![0, 0] S128x96
  h_S_ : 0 < S_.numel
  transposes_S128x96_S96x128_1_0 : S128x96.Transposes [1, 0] S96x128
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x10_d1_w32 : S5000x10.Iotas .tc 32 [1]
  broadcasts_S5000x1_S5000x10 : S5000x1.Broadcasts S5000x10
  natLt_1_32 : 1 < 32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10x128_S10x128_0_0 : ∀ a, (![0, 0] : Fin 2 → Nat) a + S10x128.size a ≤ S10x128.size a
  h_S10x128 : 0 < S10x128.numel
  shapeCasts_S10x128_S10x128 : S10x128.ShapeCasts S10x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x96_S128x96_0_0 : ∀ a, (![0, 0] : Fin 2 → Nat) a + S128x96.size a ≤ S128x96.size a
  h_S128x96 : 0 < S128x96.numel
  shapeCasts_S128x96_S128x96 : S128x96.ShapeCasts S128x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x128_S96x128_0_0 : ∀ a, (![0, 0] : Fin 2 → Nat) a + S96x128.size a ≤ S96x128.size a
  h_S96x128 : 0 < S96x128.numel
  shapeCasts_S96x128_S96x128 : S96x128.ShapeCasts S96x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  pads_S96_S128_0320 : S96.Pads (![0] : Fin 1 → Nat) ![32] ![0] S128
  pads_S256x96_S256x128_000_0320 : S256x96.Pads (![0, 0] : Fin 2 → Nat) ![0, 32] ![0, 0] S256x128
  transposes_S256x128_S128x256_1_0 : S256x128.Transposes [1, 0] S128x256
  shapeCasts_S256_S1x256 : S256.ShapeCasts S1x256
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  dot_S5000x128_S128x128_S5000x128_1_0_0_1_n_n_wf : DotDims.WF S5000x128 S128x128 S5000x128 [1] [0] [0] [1] [] []
  dot_S5000x10_S10x128_S5000x128_1_0_0_1_n_n_wf : DotDims.WF S5000x10 S10x128 S5000x128 [1] [0] [0] [1] [] []
  dot_S5000x128_S128x96_S5000x96_1_0_0_1_n_n_wf : DotDims.WF S5000x128 S128x96 S5000x96 [1] [0] [0] [1] [] []
  dot_S5000x96_S96x128_S5000x128_1_0_0_1_n_n_wf : DotDims.WF S5000x96 S96x128 S5000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .i32 = 32 ∨ (Rect.block (s := S50000x1) S5000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x128.size a ≤ S10x128.size a
  hwx0_3 : ∀ i : grid0.Coords, EltTy.bits .bf16 = 32 ∨ (Rect.block (s := S10x128) S10x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x96.size a ≤ S128x96.size a
  hwx0_5 : ∀ i : grid0.Coords, EltTy.bits .bf16 = 32 ∨ (Rect.block (s := S128x96) S128x96.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x96.size a ≤ S1x96.size a
  hwx0_6 : ∀ i : grid0.Coords, EltTy.bits .f32 = 32 ∨ (Rect.block (s := S1x96) S1x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S96x128.size a ≤ S96x128.size a
  hwx0_7 : ∀ i : grid0.Coords, EltTy.bits .bf16 = 32 ∨ (Rect.block (s := S96x128) S96x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .bf16 = 32 ∨ (Rect.block (s := S128x256) S128x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S50000x256.size a
  hwx1_4 : ∀ i : grid1.Coords, EltTy.bits .f32 = 32 ∨ (Rect.block (s := S50000x256) S5000x256.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x10_S10x128_S5000x128_1_0_0_1_n_n : DotDims S5000x10 S10x128 S5000x128 where
  lhsContracting := [1]
  rhsContracting := [0]
  lhsNonContracting := [0]
  rhsNonContracting := [1]
  lhsBatch := []
  rhsBatch := []
  wf := dot_S5000x10_S10x128_S5000x128_1_0_0_1_n_n_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S96x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000 : Shape := ⟨1, ![50000]⟩
abbrev S2x800000 : Shape := ⟨2, ![2, 800000]⟩
abbrev S128x138 : Shape := ⟨2, ![128, 138]⟩
abbrev S128 : Shape := ⟨1, ![128]⟩
abbrev S96x128 : Shape := ⟨2, ![96, 128]⟩
abbrev S96 : Shape := ⟨1, ![96]⟩
abbrev S96x96 : Shape := ⟨2, ![96, 96]⟩
abbrev S256x96 : Shape := ⟨2, ![256, 96]⟩
abbrev S256 : Shape := ⟨1, ![256]⟩
abbrev S50000x1 : Shape := ⟨2, ![50000, 1]⟩
abbrev S1x10 : Shape := ⟨2, ![1, 10]⟩
abbrev S50000x10 : Shape := ⟨2, ![50000, 10]⟩
abbrev S50000x138 : Shape := ⟨2, ![50000, 138]⟩
abbrev S138x128 : Shape := ⟨2, ![138, 128]⟩
abbrev S1x128 : Shape := ⟨2, ![1, 128]⟩
abbrev S_ : Shape := ⟨0, ![]⟩
abbrev S128x96 : Shape := ⟨2, ![128, 96]⟩
abbrev S50000x96 : Shape := ⟨2, ![50000, 96]⟩
abbrev S1x96 : Shape := ⟨2, ![1, 96]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x96 : Shape := ⟨2, ![850000, 96]⟩
abbrev S96x256 : Shape := ⟨2, ![96, 256]⟩
abbrev S50000x256 : Shape := ⟨2, ![50000, 256]⟩
abbrev S1x256 : Shape := ⟨2, ![1, 256]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000, .i32⟩
  | .hbm, ⟨2, _⟩ => ⟨S2x800000, .i32⟩
  | .hbm, ⟨3, _⟩ => ⟨S128x138, .f32⟩
  | .hbm, ⟨4, _⟩ => ⟨S128, .f32⟩
  | .hbm, ⟨5, _⟩ => ⟨S96x128, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S256x96, .f32⟩
  | .hbm, ⟨10, _⟩ => ⟨S256, .f32⟩
  | .hbm, ⟨11, _⟩ => ⟨S50000x1, .i32⟩
  | .hbm, ⟨12, _⟩ => ⟨S1x10, .i32⟩
  | .hbm, ⟨13, _⟩ => ⟨S50000x10, .i32⟩
  | .hbm, ⟨14, _⟩ => ⟨S50000x10, .i32⟩
  | .hbm, ⟨15, _⟩ => ⟨S50000x10, .i1⟩
  | .hbm, ⟨16, _⟩ => ⟨S50000x10, .f32⟩
  | .hbm, ⟨17, _⟩ => ⟨S50000x138, .f32⟩
  | .hbm, ⟨18, _⟩ => ⟨S138x128, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S128x96, .f32⟩
  | .hbm, ⟨27, _⟩ => ⟨S50000x96, .f32⟩
  | .hbm, ⟨28, _⟩ => ⟨S1x96, .f32⟩
  | .hbm, ⟨29, _⟩ => ⟨S50000x96, .f32⟩
  | .hbm, ⟨30, _⟩ => ⟨S50000x96, .f32⟩
  | .hbm, ⟨31, _⟩ => ⟨S96x96, .f32⟩
  | .hbm, ⟨32, _⟩ => ⟨S50000x96, .f32⟩
  | .hbm, ⟨33, _⟩ => ⟨S50000, .i32⟩
  | .hbm, ⟨34, _⟩ => ⟨S1x800000, .i32⟩
  | .hbm, ⟨35, _⟩ => ⟨S800000, .i32⟩
  | .hbm, ⟨36, _⟩ => ⟨S850000, .i32⟩
  | .hbm, ⟨37, _⟩ => ⟨S1x800000, .i32⟩
  | .hbm, ⟨38, _⟩ => ⟨S800000, .i32⟩
  | .hbm, ⟨39, _⟩ => ⟨S850000, .i32⟩
  | .hbm, ⟨40, _⟩ => ⟨S_, .f32⟩
  | .hbm, ⟨41, _⟩ => ⟨S850000, .f32⟩
  | .hbm, ⟨42, _⟩ => ⟨S_, .f32⟩
  | .hbm, ⟨43, _⟩ => ⟨S50000, .f32⟩
  | .hbm, ⟨44, _⟩ => ⟨S850000x1, .i32⟩
  | .hbm, ⟨45, _⟩ => ⟨S50000, .f32⟩
  | .hbm, ⟨46, _⟩ => ⟨S_, .f32⟩
  | .hbm, ⟨47, _⟩ => ⟨S50000, .f32⟩
  | .hbm, ⟨48, _⟩ => ⟨S50000, .i1⟩
  | .hbm, ⟨49, _⟩ => ⟨S50000, .f32⟩
  | .hbm, ⟨50, _⟩ => ⟨S_, .f32⟩
  | .hbm, ⟨51, _⟩ => ⟨S_, .f32⟩
  | .hbm, ⟨52, _⟩ => ⟨S50000, .f32⟩
  | .hbm, ⟨53, _⟩ => ⟨S50000, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000, .f32⟩
  | .hbm, ⟨72, _⟩ => ⟨S850000, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x96, .f32⟩
  | .hbm, ⟨82, _⟩ => ⟨S850000x1, .f32⟩
  | .hbm, ⟨83, _⟩ => ⟨S850000x96, .f32⟩
  | .hbm, ⟨84, _⟩ => ⟨S850000x96, .f32⟩
  | .hbm, ⟨85, _⟩ => ⟨S_, .f32⟩
  | .hbm, ⟨86, _⟩ => ⟨S50000x96, .f32⟩
  | .hbm, ⟨87, _⟩ => ⟨S850000x1, .i32⟩
  | .hbm, ⟨88, _⟩ => ⟨S50000x96, .f32⟩
  | .hbm, ⟨89, _⟩ => ⟨S1x96, .f32⟩
  | .hbm, ⟨90, _⟩ => ⟨S50000x96, .f32⟩
  | .hbm, ⟨91, _⟩ => ⟨S50000x96, .f32⟩
  | .hbm, ⟨92, _⟩ => ⟨S_, .f32⟩
  | .hbm, ⟨93, _⟩ => ⟨S50000x96, .f32⟩
  | .hbm, ⟨94, _⟩ => ⟨S50000x96, .f32⟩
  | .hbm, ⟨95, _⟩ => ⟨S96x256, .f32⟩
  | .hbm, ⟨96, _⟩ => ⟨S50000x256, .f32⟩
  | .hbm, ⟨97, _⟩ => ⟨S1x256, .f32⟩
  | .hbm, ⟨98, _⟩ => ⟨S50000x256, .f32⟩
  | .hbm, ⟨99, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_cst : Ref sig .tc := ⟨.hbm, 23, rfl⟩
abbrev main_call1_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_cst_0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_call2_v0 : Ref sig .tc := ⟨.hbm, 51, rfl⟩
abbrev main_call2_v1 : Ref sig .tc := ⟨.hbm, 52, rfl⟩
abbrev main_v29 : Ref sig .tc := ⟨.hbm, 53, rfl⟩
abbrev main_c : Ref sig .tc := ⟨.hbm, 54, rfl⟩
abbrev main_v30 : Ref sig .tc := ⟨.hbm, 55, rfl⟩
abbrev main_v31 : Ref sig .tc := ⟨.hbm, 56, rfl⟩
abbrev main_c_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_4 : Ref sig .tc := ⟨.hbm, 63, rfl⟩
abbrev main_v37 : Ref sig .tc := ⟨.hbm, 64, rfl⟩
abbrev main_v38 : Ref sig .tc := ⟨.hbm, 65, rfl⟩
abbrev main_c_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_6 : Ref sig .tc := ⟨.hbm, 73, rfl⟩
abbrev main_v45 : Ref sig .tc := ⟨.hbm, 74, rfl⟩
abbrev main_v46 : Ref sig .tc := ⟨.hbm, 75, rfl⟩
abbrev main_c_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call3_cst : Ref sig .tc := ⟨.hbm, 92, rfl⟩
abbrev main_call3_v0 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩

abbrev nD : Nat := 1
abbrev τ : Topo := Topo.v7x

variable {F : FTy → Type} [FloatOps F]

class Facts₀ : Prop where
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  bcast_S1x10_S50000x10_0_1 : S1x10.BroadcastsInDim S50000x10 (![0, 1] : Fin 2 → Fin S50000x10.rank)
  concatenates_S50000x128_S50000x10_S50000x138_d1 : Shape.Concatenates [S50000x128, S50000x10] S50000x138 1
  transposes_S128x138_S138x128_1_0 : S128x138.Transposes [1, 0] S138x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  transposes_S96x128_S128x96_1_0 : S96x128.Transposes [1, 0] S128x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  transposes_S96x96_S96x96_1_0 : S96x96.Transposes [1, 0] S96x96
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  transposes_S256x96_S96x256_1_0 : S256x96.Transposes [1, 0] S96x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x138_S138x128_S50000x128_1_0_0_1_n_n_wf : DotDims.WF S50000x138 S138x128 S50000x128 [1] [0] [0] [1] [] []
  dot_S50000x128_S128x96_S50000x96_1_0_0_1_n_n_wf : DotDims.WF S50000x128 S128x96 S50000x96 [1] [0] [0] [1] [] []
  dot_S50000x96_S96x96_S50000x96_1_0_0_1_n_n_wf : DotDims.WF S50000x96 S96x96 S50000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x256_S50000x256_1_0_0_1_n_n_wf : DotDims.WF S50000x96 S96x256 S50000x256 [1] [0] [0] [1] [] []

variable [Facts₀]

def dot_S50000x138_S138x128_S50000x128_1_0_0_1_n_n : DotDims S50000x138 S138x128 S50000x128 where
  lhsContracting := [1]
  rhsContracting := [0]
  lhsNonContracting := [0]
  rhsNonContracting := [1]
  lhsBatch := []
  rhsBatch := []
  wf := dot_S50000x138_S138x128_S50000x128_1_0_0_1_n_n_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x256_S50000x256_1_0_0_1_n_n : DotDims S50000x96 S96x256 S50000x256 where
  lhsContracting := [1]
  rhsContracting := [0]
  lhsNonContracting := [0]
  rhsNonContracting := [1]
  lhsBatch := []
  rhsBatch := []
  wf := dot_S50000x96_S96x256_S50000x256_1_0_0_1_n_n_wf

class Facts : Prop extends Facts₀ where

variable [Facts]
-- ==== Proof.LibEdgeGather.lean ====
/-
  A gather through a column of start indices, read at an index.

  What `x[idx]` lowers to when `idx` is a vector of E integers: a `stablehlo.gather` whose start indices are an E×1
  column, the one component of each start index naming a position on the operand's first axis. The start index is read
  as a signed integer and clamped into 0 … N − 1 (a negative one reads position 0, one past the end reads position N − 1).
  * Of a flat operand of N entries the result is a vector of E entries: entry e is the operand at that position.
  * Of an N×C operand, whole rows are taken: entry (e, c) is the operand at (that position, c).
-/
import Idealize.ShloMosaic.PureOps
import Idealize.ShloMosaic.Lib.ValueIdx

noncomputable section

namespace Cert.Lib.EdgeGather

open Idealize.ShloMosaic Idealize.ShloMosaic.ValueIdx

variable {α : Type} {N E C w : Nat}

/-- The position a start index names: read signed, clamped into 0 … N − 1. -/
def pos (N : Nat) (hN : 0 < N) (b : BitVec w) : Fin N := ⟨min b.toInt.toNat (N - 1), by omega⟩

/-- Dimension numbers of a gather of single entries of a flat operand through an E×1 column of start indices. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of a gather of whole rows of an N×C operand through an E×1 column of start indices. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry e of the flat gather: the operand at the position start index e names. -/
theorem flat_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (pos N hN (idx (ix2 e (0 : Fin 1))))) := by
  unfold Host.gather
  congr 1
  funext a
  obtain rfl : a = 0 := Subsingleton.elim _ _
  refine Fin.ext ?_
  show (flatDims N E wf).start (ix1 e) idx 0 + (flatDims N E wf).batchCoord (ix1 e) 0 + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Entry (e, c) of the row gather: the operand at (the position start index e names, c). -/
theorem row_apply (hN : 0 < N) (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (pos N hN (idx (ix2 e (0 : Fin 1)))) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    have hs : (rowDims N E C wf).start (ix2 e c) idx 1 = 0 := by
      unfold GatherDims.start
      rw [dif_neg (fun h => absurd (congrArg Fin.val (List.mem_singleton.mp h)) Nat.one_ne_zero)]
    have ho : (rowDims N E C wf).offCoord (ix2 e c) 1 = c.val := by
      unfold GatherDims.offCoord
      rw [dif_pos (by simp [GatherDims.sKept, Shape.kept])]
      rfl
    rw [hs, ho]
    omega

end Cert.Lib.EdgeGather

end
-- ==== Proof.GcnSpec.lean ====
/-
  A two-layer perceptron on one-hot-extended node features followed by one graph convolution with symmetric degree
  normalisation and a linear read-out, written twice, entry by entry, over the extended reals.

  The perceptron: row n of the input is the 128 node features followed by the one-hot code of the node's class among 10;
  the hidden layer is relu (row · W1ᵀ + b1), the feature layer hidden · W2ᵀ + b2, and the convolution's linear part
  feature · gWᵀ. In the first arrangement (`hid`) the product with W1 is the sum over the 128 features plus the sum over
  the 10 classes; in the second (`hidJ`) one sum over the 138 joined columns (`catz`).

  The convolution: each node d receives, from every edge e whose destination is d, the projected row of the edge's
  source scaled by dinv(source) · dinv(d), and from itself its own row scaled by dinv(d)², where dinv = 1/√degree and the
  degree counts the edges into d and the node's own loop. In the first arrangement (`deg`, `dinv`, `agg`) the loop is a
  separate summand and dinv(d) is factored out of the whole sum; in the second (`degJ`, `dinvJ`, `aggJ`) the loops are
  50000 further edges n → n appended to the edge list (`joined`) and every summand carries both factors.

  An edge's destination is read as a signed integer and an edge whose destination is no node is dropped; an edge's
  source, and a destination where its dinv is looked up, is first wrapped (a negative index has 50000 added) and then
  clamped into 0 … 49999 (`rowOf`).

  The read-out (`out`): relu (aggregate + gb) · Wfᵀ + bf.
-/
import Idealize.ShloMosaic.PureOps.Ideal
import Idealize.ShloMosaic.PureOps.Ideal.Laws
import Idealize.ShloMosaic.Lib.ValueIdx
import proofs.«182204_j87729001988299_2_alg».proof.Proof.LibEdgeGather

noncomputable section

open scoped BigOperators

namespace Cert.Gcn

open Idealize.ShloMosaic Idealize.ShloMosaic.ValueIdx

abbrev Mat (a b : Nat) : Type := (⟨2, ![a, b]⟩ : Shape).Idx → EReal
abbrev Vc (a : Nat) : Type := (⟨1, ![a]⟩ : Shape).Idx → EReal
abbrev IMat (a b : Nat) : Type := (⟨2, ![a, b]⟩ : Shape).Idx → BitVec 32
abbrev IVc (a : Nat) : Type := (⟨1, ![a]⟩ : Shape).Idx → BitVec 32

/-- The float word of 1.0, as both programs spell the weight of an edge in the degree count. -/
abbrev oneW : EReal := Ideal.ofBits .f32 0x3F800000#32

/-- Entry k of the one-hot code of node n's class. -/
def hot (y : IVc 50000) (n : Fin 50000) (k : Fin 10) : EReal :=
  if y (ix1 n) = BitVec.ofNat 32 k.val then 1 else 0

/-! ## The perceptron -/

section Mlp
variable (z : Mat 50000 128) (y : IVc 50000) (W1 : Mat 128 138) (b1 : Vc 128)

/-- Hidden unit j of node n: the features' part and the classes' part of the product summed apart. -/
def hid (n : Fin 50000) (j : Fin 128) : EReal :=
  max (((∑ k : Fin 128, z (ix2 n k) * W1 (ix2 j (⟨k.val, Nat.lt_of_lt_of_le k.isLt (by decide)⟩ : Fin 138)))
        + ∑ k : Fin 10, hot y n k * W1 (ix2 j (⟨128 + k.val, by have := k.isLt; omega⟩ : Fin 138))) + b1 (ix1 j)) 0

/-- Column k of node n's joined row: a feature for k < 128, a one-hot entry after. -/
def catz (n : Fin 50000) (k : Fin 138) : EReal :=
  if h : k.val < 128 then z (ix2 n (⟨k.val, h⟩ : Fin 128)) else hot y n (⟨k.val - 128, by have := k.isLt; omega⟩ : Fin 10)

/-- Hidden unit j of node n: one sum over the joined row. -/
def hidJ (n : Fin 50000) (j : Fin 128) : EReal :=
  max ((∑ k : Fin 138, catz z y n k * W1 (ix2 j k)) + b1 (ix1 j)) 0

end Mlp

/-- Feature k of node n over a hidden layer H. -/
def feat (H : Fin 50000 → Fin 128 → EReal) (W2 : Mat 96 128) (b2 : Vc 96) (n : Fin 50000) (k : Fin 96) : EReal :=
  (∑ j : Fin 128, H n j * W2 (ix2 k j)) + b2 (ix1 k)

/-- The convolution's linear part: column c of node n's projected row over a feature layer Fm. -/
def proj (Fm : Fin 50000 → Fin 96 → EReal) (gW : Mat 96 96) (n : Fin 50000) (c : Fin 96) : EReal :=
  ∑ k : Fin 96, Fm n k * gW (ix2 c k)

/-! ## The edges -/

/-- A negative index has 50000 added. -/
def wrap (b : BitVec 32) : BitVec 32 := Scalar.select (IntOp.cmpi .slt b 0#32) (IntOp.addi b 50000#32) b

/-- The row an index names where a row is looked up: wrapped, then clamped into 0 … 49999. -/
def rowOf (b : BitVec 32) : Fin 50000 := Cert.Lib.EdgeGather.pos 50000 (by decide) (wrap b)

section Edges
variable (ei : IMat 2 800000)

/-- The row edge e reads. -/
def src (e : Fin 800000) : Fin 50000 := rowOf (ei (ix2 (0 : Fin 2) e))

/-- The node edge e adds into, as a signed integer (no node when out of range). -/
def dst (e : Fin 800000) : Int := (ei (ix2 (1 : Fin 2) e)).toInt

/-- The edges into node d. -/
def into (d : Fin 50000) : Finset (Fin 800000) := Finset.univ.filter fun e => dst ei e = (d.val : Int)

/-- Node d's degree: the edges into it, and its own loop. -/
def deg (d : Fin 50000) : EReal := (0 + ∑ _e ∈ into ei d, oneW) + oneW

/-- 1/√degree where the degree is positive, 0 elsewhere. -/
def dinv (d : Fin 50000) : EReal := Scalar.select (Ideal.cmp .ogt (deg ei d) 0) (Ideal.rsqrt (deg ei d)) 0

/-- The aggregate with dinv(d) factored out and the loop apart. -/
def agg (X : Fin 50000 → Fin 96 → EReal) (d : Fin 50000) (c : Fin 96) : EReal :=
  dinv ei d * ((0 + ∑ e ∈ into ei d, X (src ei e) c * dinv ei (src ei e)) + X d c * dinv ei d)

/-- Entry e of row `row` of the edge list with the 50000 loops n → n appended. -/
def joined (row : Fin 2) (e : Fin 850000) : BitVec 32 :=
  if h : e.val < 800000 then ei (ix2 row (⟨e.val, h⟩ : Fin 800000)) else BitVec.ofNat 32 (e.val - 800000)

/-- The joined edges into node d. -/
def intoJ (d : Fin 50000) : Finset (Fin 850000) :=
  Finset.univ.filter fun e => (joined ei (1 : Fin 2) e).toInt = (d.val : Int)

/-- Node d's degree counted over the joined list. -/
def degJ (d : Fin 50000) : EReal := 0 + ∑ _e ∈ intoJ ei d, oneW

/-- 1/√degree over the joined list. -/
def dinvJ (d : Fin 50000) : EReal := Scalar.select (Ideal.cmp .ogt (degJ ei d) 0) (Ideal.rsqrt (degJ ei d)) 0

/-- The aggregate over the joined list, every summand carrying both normalising factors. -/
def aggJ (X : Fin 50000 → Fin 96 → EReal) (d : Fin 50000) (c : Fin 96) : EReal :=
  0 + ∑ e ∈ intoJ ei d, X (rowOf (joined ei (0 : Fin 2) e)) c
        * (dinvJ ei (rowOf (joined ei (0 : Fin 2) e)) * dinvJ ei (rowOf (joined ei (1 : Fin 2) e)))

end Edges

/-! ## The read-out -/

/-- Entry (n, j) of the result over an aggregate A. -/
def out (A : Fin 50000 → Fin 96 → EReal) (gb : Vc 96) (Wf : Mat 256 96) (bf : Vc 256) (n : Fin 50000) (j : Fin 256) : EReal :=
  (∑ k : Fin 96, max (A n k + gb (ix1 k)) 0 * Wf (ix2 j k)) + bf (ix1 j)

end Cert.Gcn

end
-- ==== Proof.GcnLaw.lean ====
/-
  The two arrangements of GcnSpec are one function.

  * The perceptron: a sum over the 138 joined columns is the sum over the first 128 plus the sum over the last 10
    (`hidJ_eq`).
  * The edge list with the loops appended: a sum over the joined edges into node d is the sum over the edges into d plus
    the summand of d's own loop, because loop n has destination n (`sum_intoJ`); so the degree counted over the joined
    list is the degree with the loop added apart (`degJ_eq`, `dinvJ_eq`).
  * dinv is a finite non-negative number at every node, whatever the degree: where the degree is positive its inverse
    square root is a non-negative real or, at infinite degree, 0; elsewhere dinv is 0 (`dinv_nonneg`, `dinv_ne_top`). A finite
    non-negative factor distributes over sums of extended reals, which is all the factoring needs: no entry of the data
    has to be finite.
  * An edge into d has a destination that is a node, so the row looked up for it is d itself (`rowOf_of_toInt`), and the
    loop of n reads row n. Hence `aggJ_eq`: every summand x · (dinv s · dinv d) is dinv d · (x · dinv s), and dinv d comes
    out of the sum.
  * A product summed over 128 columns of which the last 32 of one factor are zero is the sum over the first 96
    (`sum_pad`).
-/
import Mathlib
import proofs.«182204_j87729001988299_2_alg».proof.Proof.GcnSpec

noncomputable section

open scoped BigOperators

namespace Cert.Gcn

open Idealize.ShloMosaic Idealize.ShloMosaic.ValueIdx

/-! ## Sums over a split range -/

/-- A sum over a + b indices is the sum over the first a plus the sum over the last b. -/
theorem sum_split (a b : Nat) (f : Fin (a + b) → EReal) :
    ∑ k, f k = (∑ k : Fin a, f (Fin.castAdd b k)) + ∑ k : Fin b, f (Fin.natAdd a k) := Fin.sum_univ_add f

/-- Over 128 columns of which the last 32 of the right factor vanish, only the first 96 count. -/
theorem sum_pad (f w : Fin 128 → EReal) (hw : ∀ k : Fin 128, 96 ≤ k.val → w k = 0) :
    ∑ k : Fin 128, f k * w k
      = ∑ k : Fin 96, f (⟨k.val, Nat.lt_of_lt_of_le k.isLt (by decide)⟩ : Fin 128) * w (⟨k.val, Nat.lt_of_lt_of_le k.isLt (by decide)⟩ : Fin 128) := by
  have h := sum_split 96 32 (fun k : Fin (96 + 32) => f k * w k)
  refine h.trans ?_
  have h2 : ∑ k : Fin 32, f (Fin.natAdd 96 k) * w (Fin.natAdd 96 k) = 0 :=
    Finset.sum_eq_zero fun k _ => by
      rw [hw (Fin.natAdd 96 k) (by show 96 ≤ 96 + k.val; omega), mul_zero]
  rw [h2, add_zero]
  rfl

/-! ## The perceptron -/

theorem hidJ_eq (z : Mat 50000 128) (y : IVc 50000) (W1 : Mat 128 138) (b1 : Vc 128) :
    hidJ z y W1 b1 = hid z y W1 b1 := by
  funext n j
  have hA : ∑ k : Fin 128, catz z y n (Fin.castAdd 10 k) * W1 (ix2 j (Fin.castAdd 10 k))
      = ∑ k : Fin 128, z (ix2 n k) * W1 (ix2 j (⟨k.val, Nat.lt_of_lt_of_le k.isLt (by decide)⟩ : Fin 138)) :=
    Finset.sum_congr rfl fun k _ => by
      unfold catz
      rw [dif_pos (show (Fin.castAdd 10 k).val < 128 from k.isLt)]
      rfl
  have hB : ∑ k : Fin 10, catz z y n (Fin.natAdd 128 k) * W1 (ix2 j (Fin.natAdd 128 k))
      = ∑ k : Fin 10, hot y n k * W1 (ix2 j (⟨128 + k.val, by have := k.isLt; omega⟩ : Fin 138)) :=
    Finset.sum_congr rfl fun k _ => by
      unfold catz
      rw [dif_neg (show ¬ (Fin.natAdd 128 k).val < 128 from by show ¬ 128 + k.val < 128; omega)]
      have e : (⟨(Fin.natAdd 128 k).val - 128, by have := k.isLt; show 128 + k.val - 128 < 10; omega⟩ : Fin 10) = k :=
        Fin.ext (by show 128 + k.val - 128 = k.val; omega)
      rw [e]
      rfl
  have hS : ∑ k : Fin 138, catz z y n k * W1 (ix2 j k)
      = (∑ k : Fin 128, z (ix2 n k) * W1 (ix2 j (⟨k.val, Nat.lt_of_lt_of_le k.isLt (by decide)⟩ : Fin 138)))
        + ∑ k : Fin 10, hot y n k * W1 (ix2 j (⟨128 + k.val, by have := k.isLt; omega⟩ : Fin 138)) :=
    (sum_split 128 10 (fun k : Fin (128 + 10) => catz z y n k * W1 (ix2 j k))).trans (congrArg₂ (· + ·) hA hB)
  unfold hidJ hid
  rw [hS]

/-! ## Indices -/

theorem toInt_ofNat_small (n : Nat) (h : n < 50000) : (BitVec.ofNat 32 n).toInt = (n : Int) := by
  rw [BitVec.toInt_eq_toNat_cond, BitVec.toNat_ofNat]
  have : n % 2 ^ 32 = n := Nat.mod_eq_of_lt (by omega)
  rw [this]
  rw [if_pos (by omega)]

/-- An index that is not negative is not wrapped. -/
theorem wrap_of_nonneg (b : BitVec 32) (h : 0 ≤ b.toInt) : wrap b = b := by
  unfold wrap Scalar.select IntOp.cmpi
  have hs : b.slt 0#32 = false := by
    rw [BitVec.slt]
    exact decide_eq_false (by simpa using h)
  simp only [hs]
  rfl

/-- An index that names node d, read signed, looks up row d. -/
theorem rowOf_of_toInt (b : BitVec 32) (d : Fin 50000) (h : b.toInt = (d.val : Int)) : rowOf b = d := by
  unfold rowOf
  rw [wrap_of_nonneg b (by omega)]
  unfold Cert.Lib.EdgeGather.pos
  refine Fin.ext ?_
  show min b.toInt.toNat (50000 - 1) = d.val
  have := d.isLt
  omega

/-! ## The joined edge list -/

section Edges
variable (ei : IMat 2 800000)

/-- Edge e's place in the joined list. -/
def edgeJ (e : Fin 800000) : Fin 850000 := ⟨e.val, Nat.lt_of_lt_of_le e.isLt (by decide)⟩
/-- The place of node n's loop in the joined list. -/
def loopJ (n : Fin 50000) : Fin 850000 := ⟨800000 + n.val, by have := n.isLt; omega⟩

theorem joined_edge (row : Fin 2) (e : Fin 800000) : joined ei row (edgeJ e) = ei (ix2 row e) := by
  unfold joined edgeJ
  rw [dif_pos (show e.val < 800000 from e.isLt)]

theorem joined_loop (row : Fin 2) (n : Fin 50000) : joined ei row (loopJ n) = BitVec.ofNat 32 n.val := by
  unfold joined loopJ
  rw [dif_neg (show ¬ 800000 + n.val < 800000 by omega)]
  have h : 800000 + n.val - 800000 = n.val := by omega
  show BitVec.ofNat 32 (800000 + n.val - 800000) = BitVec.ofNat 32 n.val
  rw [h]

/-- A sum over the joined edges into d: the edges into d, and d's own loop. -/
theorem sum_intoJ (g : Fin 850000 → EReal) (d : Fin 50000) :
    ∑ e ∈ intoJ ei d, g e = (∑ e ∈ into ei d, g (edgeJ e)) + g (loopJ d) := by
  unfold intoJ into
  rw [Finset.sum_filter, Finset.sum_filter]
  have hA : ∑ e : Fin 800000, (if (joined ei (1 : Fin 2) (Fin.castAdd 50000 e)).toInt = (d.val : Int) then g (Fin.castAdd 50000 e) else 0)
      = ∑ e : Fin 800000, if dst ei e = (d.val : Int) then g (edgeJ e) else 0 :=
    Finset.sum_congr rfl fun e _ => by
      have he : (Fin.castAdd 50000 e : Fin (800000 + 50000)) = edgeJ e := rfl
      rw [he, joined_edge]
      rfl
  have hl : ∀ n : Fin 50000, (Fin.natAdd 800000 n : Fin (800000 + 50000)) = loopJ n := fun _ => rfl
  have hB : ∑ n : Fin 50000, (if (joined ei (1 : Fin 2) (Fin.natAdd 800000 n)).toInt = (d.val : Int) then g (Fin.natAdd 800000 n) else 0)
      = g (loopJ d) := by
    rw [Finset.sum_eq_single d]
    · rw [hl, joined_loop, toInt_ofNat_small d.val d.isLt, if_pos rfl]
    · intro n _ hne
      rw [hl, joined_loop, toInt_ofNat_small n.val n.isLt, if_neg]
      intro h
      exact hne (Fin.ext (by exact_mod_cast h))
    · intro h; exact absurd (Finset.mem_univ d) h
  exact (sum_split 800000 50000 (fun e : Fin (800000 + 50000) =>
    if (joined ei (1 : Fin 2) e).toInt = (d.val : Int) then g e else 0)).trans (congrArg₂ (· + ·) hA hB)

theorem degJ_eq (d : Fin 50000) : degJ ei d = deg ei d := by
  unfold degJ deg
  rw [sum_intoJ ei (fun _ => oneW) d, add_assoc]

theorem dinvJ_eq (d : Fin 50000) : dinvJ ei d = dinv ei d := by
  unfold dinvJ dinv
  rw [degJ_eq]

/-! ## dinv is a finite non-negative number -/

theorem rsqrt_nonneg_of_pos (x : EReal) (h : 0 < x) : 0 ≤ Ideal.rsqrt x ∧ Ideal.rsqrt x ≠ ⊤ := by
  induction x using EReal.rec with
  | bot => exact absurd h (by simp)
  | top => exact ⟨by simp, by simp⟩
  | coe r =>
    have hr : 0 < r := by exact_mod_cast h
    rw [Ideal.rsqrt_coe, if_neg (not_lt.mpr hr.le), if_neg (ne_of_gt hr)]
    exact ⟨by exact_mod_cast inv_nonneg.mpr (Real.sqrt_nonneg r), EReal.coe_ne_top _⟩

theorem dinv_spec (d : Fin 50000) : 0 ≤ dinv ei d ∧ dinv ei d ≠ ⊤ := by
  unfold dinv Scalar.select Ideal.cmp
  by_cases h : 0 < deg ei d
  · have : BitVec.ofBool (decide (0 < deg ei d)) = 1 := by simp [h]
    simp only [this, if_true]
    exact rsqrt_nonneg_of_pos _ h
  · have : BitVec.ofBool (decide (0 < deg ei d)) ≠ 1 := by simp [h]
    simp only [this, if_false]
    exact ⟨le_refl 0, EReal.zero_ne_top⟩

theorem dinv_nonneg (d : Fin 50000) : 0 ≤ dinv ei d := (dinv_spec ei d).1
theorem dinv_ne_top (d : Fin 50000) : dinv ei d ≠ ⊤ := (dinv_spec ei d).2

/-- A finite non-negative factor goes into a finite sum of extended reals. -/
theorem mul_sum_of_nonneg {ι : Type*} (a : EReal) (h0 : 0 ≤ a) (ht : a ≠ ⊤) (s : Finset ι) (f : ι → EReal) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 ht, ih]

/-! ## The aggregate -/

theorem aggJ_eq (X : Fin 50000 → Fin 96 → EReal) : aggJ ei X = agg ei X := by
  funext d c
  have h0 := dinv_nonneg ei d
  have ht := dinv_ne_top ei d
  have hloop : rowOf (BitVec.ofNat 32 d.val) = d := rowOf_of_toInt _ d (toInt_ofNat_small d.val d.isLt)
  have hsum : (∑ e ∈ into ei d, X (rowOf (joined ei (0 : Fin 2) (edgeJ e))) c
        * (dinvJ ei (rowOf (joined ei (0 : Fin 2) (edgeJ e))) * dinvJ ei (rowOf (joined ei (1 : Fin 2) (edgeJ e)))))
      = dinv ei d * ∑ e ∈ into ei d, X (src ei e) c * dinv ei (src ei e) := by
    rw [mul_sum_of_nonneg _ h0 ht]
    refine Finset.sum_congr rfl fun e he => ?_
    have hd : dst ei e = (d.val : Int) := (Finset.mem_filter.mp he).2
    rw [joined_edge, joined_edge, dinvJ_eq, dinvJ_eq, rowOf_of_toInt _ d hd]
    show X (src ei e) c * (dinv ei (src ei e) * dinv ei d) = dinv ei d * (X (src ei e) c * dinv ei (src ei e))
    rw [← mul_assoc, mul_comm]
  have hself : X (rowOf (joined ei (0 : Fin 2) (loopJ d))) c
        * (dinvJ ei (rowOf (joined ei (0 : Fin 2) (loopJ d))) * dinvJ ei (rowOf (joined ei (1 : Fin 2) (loopJ d))))
      = dinv ei d * (X d c * dinv ei d) := by
    rw [joined_loop, joined_loop, hloop, dinvJ_eq]
    rw [← mul_assoc, mul_comm]
  unfold aggJ agg
  rw [sum_intoJ ei _ d, hsum, hself]
  rw [EReal.left_distrib_of_nonneg_of_ne_top h0 ht, EReal.left_distrib_of_nonneg_of_ne_top h0 ht, mul_zero, add_assoc]

end Edges

end Cert.Gcn

end
-- ==== Proof.KernRun.lean ====
/-
  The idealized kernel's program, run: every weakly fair execution ends, nothing faulting, with the result array at the
  contents the second region's write-backs leave in it — the fold of the two regions and of the host operations around
  them from the launch memory, `W12` — and with the eleven argument arrays as launched.
-/
import proofs.«182204_j87729001988299_2_alg».proof.Proof.Gen.KernelIdeal.Frame

set_option maxRecDepth 16384

noncomputable section

namespace Cert.KernRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result array named: the launch over the twelve segments (ten stretches of host operations,
    two regions), the last thread state read against the final state; the result buffer is an unscoped buffer, so it ends
    at the last boundary's contents, and each argument is walked back through the fold to the launch memory. -/
theorem run_value : θ_run defs (onTc (τ := τ) (main (F := F))) ⟨m, fun _ => 0, ρ⟩ (fun r => ∀ c : Dev nD,
      r.2.mem ((c.tc : Thread nD τ).loc main_v51) = W12 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v51 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernRun

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.KernBody.lean ====
/-
  The two kernel bodies read at an index, at the ideal values.

  The first body takes a block of node features x0 (rows r), each row's class index x1, and forms, per row,
  relu(x0·W + onehot(x1)·E + b) · W₁ + b₁, then that times W₂: three plain matrix products, the one-hot rows
  written as the comparison of the class index with the column number. The second body is relu(x0 + b)·W + b'.
  Every rounding to a narrower format is the identity at the ideal values.
-/
import proofs.«182204_j87729001988299_2_alg».proof.Proof.Gen.KernelIdeal.Frame
import proofs.«182204_j87729001988299_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernBody

open Cert.KernelIdeal Cert.KernelIdeal.Gen Idealize.ShloMosaic Idealize.ShloMosaic.ValueIdx

/-- The offsets of a whole-buffer access are all zero. -/
theorem zero_offsets : (![0, 0] : Fin 2 → Nat) = fun _ => 0 := funext fun a => by fin_cases a <;> rfl

/-- A column broadcast over the lanes reads, at (p, c), the column's entry of row p. -/
theorem column_over_lanes_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison of two words, widened to a word and read as a signed number: 1 where they agree, 0 elsewhere. -/
theorem indicator_of_words (a y : BitVec 32) :
    ((((IntOp.cmpi .eq a y).setWidth 32).toInt : ℝ) : EReal) = if y = a then (1 : EReal) else 0 := by
  show (((((BitVec.ofBool (a == y)).setWidth 32).toInt : ℤ) : ℝ) : EReal) = _
  by_cases h : y = a
  · subst h
    rw [if_pos rfl, beq_self_eq_true]
    have e : ((BitVec.ofBool true).setWidth 32).toInt = 1 := by decide
    rw [e]; norm_num
  · rw [if_neg h]
    have hb : (a == y) = false := beq_eq_false_iff_ne.mpr fun e => h e.symm
    rw [hb]
    have e : ((BitVec.ofBool false).setWidth 32).toInt = 0 := by decide
    rw [e]; norm_num

/-- The one-hot row of the class index: at (r, i) it is 1 where row r's class is i, 0 elsewhere. -/
theorem onehot_apply (x1 : Vec Ideal S5000x1 .i32) (r : Fin 5000) (i : Fin 10) :
    (truncf .bf16 (sitofp (F := Ideal) .f32 (extui 32 (cmpi .eq (iota .tc S5000x10 32 [1] iota_S5000x10_d1_w32)
        (broadcastTo S5000x10 x1 broadcasts_S5000x1_S5000x10)) natLt_1_32))
        bitsLt_bf16_f32 : FVec Ideal S5000x10 .bf16) (ix2 r i)
      = if x1 (ix2 r (0 : Fin 1)) = BitVec.ofNat 32 i.val then (1 : EReal) else 0 := by
  rw [truncf_apply, sitofp_apply, extui_apply]
  show (((((IntOp.cmpi .eq (BitVec.ofNat 32 (0 * 10 + i.val))
      (broadcastTo S5000x10 x1 broadcasts_S5000x1_S5000x10 (ix2 r i))).setWidth 32).toInt : ℤ) : ℝ) : EReal) = _
  rw [column_over_lanes_apply, Nat.zero_mul, Nat.zero_add]
  exact indicator_of_words _ _

/-- The first body's arithmetic at (r, c): three plain products, the middle layer rectified, the one-hot rows of the
    class index entering the first layer beside the features. -/
theorem k0_pay1_apply (x0 : Vec Ideal S5000x128 .f32) (x1 : Vec Ideal S5000x1 .i32) (x2 : Vec Ideal S128x128 .bf16)
    (x3 : Vec Ideal S10x128 .bf16) (x4 : Vec Ideal S1x128 .f32) (x5 : Vec Ideal S128x96 .bf16) (x6 : Vec Ideal S1x96 .f32)
    (x7 : Vec Ideal S96x128 .bf16) (r : Fin 5000) (c : Fin 128) :
    k0_pay1 (F := Ideal) x0 x1 x2 x3 x4 x5 x6 x7 (ix2 r c)
      = ∑ k : Fin 96, ((∑ j : Fin 128, max (((∑ i : Fin 128, x0 (ix2 r i) * x2 (ix2 i j))
          + ∑ i : Fin 10, (if x1 (ix2 r (0 : Fin 1)) = BitVec.ofNat 32 i.val then (1 : EReal) else 0) * x3 (ix2 i j))
          + x4 (ix2 (0 : Fin 1) j)) 0 * x5 (ix2 j k)) + x6 (ix2 (0 : Fin 1) k)) * x7 (ix2 k c) := by
  unfold k0_pay1
  simp only [shapeCast_self]
  refine (PlainDot.matmul_zero_apply (M := 5000) (K := 96) (N := 128) (φ₁ := .bf16) (φ₂ := .bf16) none _ _ r c).trans ?_
  refine Finset.sum_congr rfl fun k _ => ?_
  rw [truncf_apply, addf_apply, broadcastTo_1b_ab_apply]
  refine congrArg (· * x7 (ix2 k c)) ?_
  refine congrArg (· + x6 (ix2 (0 : Fin 1) k)) ?_
  refine (PlainDot.matmul_zero_apply (M := 5000) (K := 128) (N := 96) (φ₁ := .bf16) (φ₂ := .bf16) none _ _ r k).trans ?_
  refine Finset.sum_congr rfl fun j _ => ?_
  rw [truncf_apply, maximumf_apply, broadcast_apply, addf_apply, addf_apply, broadcastTo_1b_ab_apply]
  show max (_ + _ + x4 (ix2 (0 : Fin 1) j)) (Ideal.ofBits .f32 0x00000000#32) * x5 (ix2 j k) = _
  rw [Ideal.ofBits_zero_f32]
  refine congrArg (fun t => max (t + x4 (ix2 (0 : Fin 1) j)) 0 * x5 (ix2 j k)) ?_
  refine congrArg₂ (· + ·) ?_ ?_
  · refine (PlainDot.matmul_zero_apply (M := 5000) (K := 128) (N := 128) (φ₁ := .bf16) (φ₂ := .bf16) none _ _ r j).trans ?_
    refine Finset.sum_congr rfl fun i _ => ?_
    rw [truncf_apply]
  · refine (PlainDot.matmul_zero_apply (M := 5000) (K := 10) (N := 128) (φ₁ := .bf16) (φ₂ := .bf16) none _ _ r j).trans ?_
    refine Finset.sum_congr rfl fun i _ => ?_
    rw [onehot_apply]

theorem out0_8_apply (x0 : Vec Ideal S5000x128 .f32) (x1 : Vec Ideal S5000x1 .i32) (x2 : Vec Ideal S128x128 .bf16)
    (x3 : Vec Ideal S10x128 .bf16) (x4 : Vec Ideal S1x128 .f32) (x5 : Vec Ideal S128x96 .bf16) (x6 : Vec Ideal S1x96 .f32)
    (x7 : Vec Ideal S96x128 .bf16) (r : Fin 5000) (c : Fin 128) :
    out0_8 (F := Ideal) x0 x1 x2 x3 x4 x5 x6 x7 (ix2 r c)
      = ∑ k : Fin 96, ((∑ j : Fin 128, max (((∑ i : Fin 128, x0 (ix2 r i) * x2 (ix2 i j))
          + ∑ i : Fin 10, (if x1 (ix2 r (0 : Fin 1)) = BitVec.ofNat 32 i.val then (1 : EReal) else 0) * x3 (ix2 i j))
          + x4 (ix2 (0 : Fin 1) j)) 0 * x5 (ix2 j k)) + x6 (ix2 (0 : Fin 1) k)) * x7 (ix2 k c) := by
  unfold out0_8
  rw [View.canon_unit_zero zero_offsets]
  simp only [View.ld_unit_zero (S := S5000x128) zero_offsets, View.ld_unit_zero (S := S5000x1) zero_offsets,
    View.ld_unit_zero (S := S128x128) zero_offsets, View.ld_unit_zero (S := S10x128) zero_offsets,
    View.ld_unit_zero (S := S1x128) zero_offsets, View.ld_unit_zero (S := S128x96) zero_offsets,
    View.ld_unit_zero (S := S1x96) zero_offsets, View.ld_unit_zero (S := S96x128) zero_offsets]
  exact k0_pay1_apply x0 x1 x2 x3 x4 x5 x6 x7 r c

/-- The second body's arithmetic at (r, j): the rectified sum of the row and the bias, times the weights, plus the
    second bias. -/
theorem k1_pay1_apply (x0 : Vec Ideal S5000x128 .f32) (x1 : Vec Ideal S1x128 .f32) (x2 : Vec Ideal S128x256 .bf16)
    (x3 : Vec Ideal S1x256 .f32) (r : Fin 5000) (j : Fin 256) :
    k1_pay1 (F := Ideal) x0 x1 x2 x3 (ix2 r j)
      = (∑ k : Fin 128, max (x0 (ix2 r k) + x1 (ix2 (0 : Fin 1) k)) 0 * x2 (ix2 k j)) + x3 (ix2 (0 : Fin 1) j) := by
  unfold k1_pay1
  rw [addf_apply]
  refine congrArg₂ (· + ·) ?_ ?_
  · refine (PlainDot.matmul_zero_apply (M := 5000) (K := 128) (N := 256) (φ₁ := .bf16) (φ₂ := .bf16) none _ _ r j).trans ?_
    refine Finset.sum_congr rfl fun k _ => ?_
    rw [shapeCast_self, truncf_apply, maximumf_apply, broadcast_apply, addf_apply, shapeCast_self, shapeCast_self,
      broadcastTo_1b_ab_apply]
    show max (x0 (ix2 r k) + x1 (ix2 (0 : Fin 1) k)) (Ideal.ofBits .f32 0x00000000#32) * x2 (ix2 k j) = _
    rw [Ideal.ofBits_zero_f32]
  · rw [shapeCast_self, broadcastTo_1b_ab_apply]

theorem out1_4_apply (x0 : Vec Ideal S5000x128 .f32) (x1 : Vec Ideal S1x128 .f32) (x2 : Vec Ideal S128x256 .bf16)
    (x3 : Vec Ideal S1x256 .f32) (r : Fin 5000) (j : Fin 256) :
    out1_4 (F := Ideal) x0 x1 x2 x3 (ix2 r j)
      = (∑ k : Fin 128, max (x0 (ix2 r k) + x1 (ix2 (0 : Fin 1) k)) 0 * x2 (ix2 k j)) + x3 (ix2 (0 : Fin 1) j) := by
  unfold out1_4
  rw [View.canon_unit_zero zero_offsets]
  simp only [View.ld_unit_zero (S := S5000x128) zero_offsets, View.ld_unit_zero (S := S1x128) zero_offsets,
    View.ld_unit_zero (S := S128x256) zero_offsets, View.ld_unit_zero (S := S1x256) zero_offsets]
  exact k1_pay1_apply x0 x1 x2 x3 r j

end Cert.KernBody

end
-- ==== Proof.KernCover.lean ====
/-
  From the blocks to the whole arrays. Each region's grid has ten points; point t works on rows 5000·t … 5000·t + 4999
  of the node arrays and on the whole of every weight array, and writes its block of the result back. Row R of the
  result array is therefore written by point R / 5000, and holds the body's arithmetic of row R of the node arrays:
  the result array, after the region, is one function of the arrays the region found, index by index.
-/
import proofs.«182204_j87729001988299_2_alg».proof.Proof.KernBody
import proofs.«182204_j87729001988299_2_alg».proof.Proof.Gen.KernelIdeal.Frame
import Idealize.ShloMosaic.Lib.Pipeline.Value
import Idealize.ShloMosaic.Lib.ValueIdx

noncomputable section

open scoped BigOperators

namespace Cert.KernCover

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The first region -/

/-- The first region's result array as a function of the arrays it reads: per node (row), three plain products with the
    middle layer rectified, the one-hot row of the node's class entering the first layer beside its features. -/
def X0 (a0 : S50000x128.Idx → EReal) (a1 : S50000x1.Idx → BitVec 32) (a2 : S128x128.Idx → EReal) (a3 : S10x128.Idx → EReal)
    (a4 : S1x128.Idx → EReal) (a5 : S128x96.Idx → EReal) (a6 : S1x96.Idx → EReal) (a7 : S96x128.Idx → EReal) :
    S50000x128.Idx → EReal :=
  fun i => ∑ k : Fin 96, ((∑ j : Fin 128, max (((∑ q : Fin 128, a0 (ix2 (i 0) q) * a2 (ix2 q j))
    + ∑ q : Fin 10, (if a1 (ix2 (i 0) (0 : Fin 1)) = BitVec.ofNat 32 q.val then (1 : EReal) else 0) * a3 (ix2 q j))
    + a4 (ix2 (0 : Fin 1) j)) 0 * a5 (ix2 j k)) + a6 (ix2 (0 : Fin 1) k)) * a7 (ix2 k (i 1))

/-- It read at row R, column C. -/
theorem X0_apply (a0 : S50000x128.Idx → EReal) (a1 : S50000x1.Idx → BitVec 32) (a2 : S128x128.Idx → EReal)
    (a3 : S10x128.Idx → EReal) (a4 : S1x128.Idx → EReal) (a5 : S128x96.Idx → EReal) (a6 : S1x96.Idx → EReal)
    (a7 : S96x128.Idx → EReal) (R : Fin 50000) (C : Fin 128) :
    X0 a0 a1 a2 a3 a4 a5 a6 a7 (ix2 R C)
      = ∑ k : Fin 96, ((∑ j : Fin 128, max (((∑ q : Fin 128, a0 (ix2 R q) * a2 (ix2 q j))
          + ∑ q : Fin 10, (if a1 (ix2 R (0 : Fin 1)) = BitVec.ofNat 32 q.val then (1 : EReal) else 0) * a3 (ix2 q j))
          + a4 (ix2 (0 : Fin 1) j)) 0 * a5 (ix2 j k)) + a6 (ix2 (0 : Fin 1) k)) * a7 (ix2 k C) := rfl

/-- A body run on rows T·5000 … of the node arrays and on the whole weight arrays leaves, at row r of its block, the
    function's value at row T·5000 + r. -/
theorem X0_block (a0 : S50000x128.Idx → EReal) (a1 : S50000x1.Idx → BitVec 32) (a2 : S128x128.Idx → EReal)
    (a3 : S10x128.Idx → EReal) (a4 : S1x128.Idx → EReal) (a5 : S128x96.Idx → EReal) (a6 : S1x96.Idx → EReal)
    (a7 : S96x128.Idx → EReal)
    (x0 : Vec Ideal S5000x128 .f32) (x1 : Vec Ideal S5000x1 .i32) (x2 : Vec Ideal S128x128 .bf16)
    (x3 : Vec Ideal S10x128 .bf16) (x4 : Vec Ideal S1x128 .f32) (x5 : Vec Ideal S128x96 .bf16) (x6 : Vec Ideal S1x96 .f32)
    (x7 : Vec Ideal S96x128 .bf16) (T : ℕ)
    (h0 : ∀ (r : Fin 5000) (q : Fin 128) (R : Fin 50000), R.val = T * 5000 + r.val → x0 (ix2 r q) = a0 (ix2 R q))
    (h1 : ∀ (r : Fin 5000) (R : Fin 50000), R.val = T * 5000 + r.val → x1 (ix2 r (0 : Fin 1)) = a1 (ix2 R (0 : Fin 1)))
    (h2 : x2 = a2) (h3 : x3 = a3) (h4 : x4 = a4) (h5 : x5 = a5) (h6 : x6 = a6) (h7 : x7 = a7)
    (j : S5000x128.Idx) (k : S50000x128.Idx) (hk0 : (k 0).val = T * 5000 + (j 0).val) (hk1 : (k 1).val = (j 1).val) :
    out0_8 (F := Ideal) x0 x1 x2 x3 x4 x5 x6 x7 j = X0 a0 a1 a2 a3 a4 a5 a6 a7 k := by
  obtain ⟨r, cc, rfl⟩ : ∃ (r : Fin 5000) (cc : Fin 128), j = ix2 r cc := ⟨j 0, j 1, eq_ix2 j⟩
  obtain ⟨R, C, rfl⟩ : ∃ (R : Fin 50000) (C : Fin 128), k = ix2 R C := ⟨k 0, k 1, eq_ix2 k⟩
  have hR : R.val = T * 5000 + r.val := hk0
  obtain rfl : C = cc := Fin.ext hk1
  subst h2 h3 h4 h5 h6 h7
  rw [KernBody.out0_8_apply, X0_apply]
  simp only [h1 r R hR, fun q => h0 r q R hR]

/-- The block index of each window at each point: the node arrays and the result move down one block of rows per point,
    the weight arrays stay whole. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- What point t writes back is block t of the function of the arrays the region found. -/
theorem flushed0_eq (c : Dev nD) (t : Fin cfg0.N) :
    (dat0 V c).flushed 8 t = ((cfg0.win 8).blk t).view.read (Elt Ideal)
      (X0 (V c main_arg0) (V c main_v13) (V c main_v2) (V c main_v5) (V c main_v6) (V c main_v8) (V c main_v9) (V c main_v12)) := by
  show (cfg0.win 8).cut (grid0.coords t) ((dat0 V c).after 8 t) = _
  rw [after0_8]
  obtain ⟨e00, e01, e10, e11, e20, e21, e30, e31, e40, e41, e50, e51, e60, e61, e70, e71, e80, e81⟩ := idx_facts0 t
  funext j
  show out0_8 (iblk0 V c 0 t) (iblk0 V c 1 t) (iblk0 V c 2 t) (iblk0 V c 3 t) (iblk0 V c 4 t) (iblk0 V c 5 t) (iblk0 V c 6 t) (iblk0 V c 7 t) j
    = X0 (V c main_arg0) (V c main_v13) (V c main_v2) (V c main_v5) (V c main_v6) (V c main_v8) (V c main_v9) (V c main_v12) (((cfg0.win 8).blk t).view.emb j)
  refine X0_block _ _ _ _ _ _ _ _ _ _ _ _ _ _ _ _ t.val ?_ ?_ ?_ ?_ ?_ ?_ ?_ ?_ j _ ?_ ?_
  · intro r q R hR
    show V c main_arg0 (((cfg0.win 0).blk t).view.emb (ix2 r q)) = V c main_arg0 (ix2 R q)
    refine congrArg _ (funext fun a => Fin.ext ?_)
    match a with
    | ⟨0, _⟩ => show win0_0.index t (0 : Fin 2) * 5000 + 1 * r.val = R.val; omega
    | ⟨1, _⟩ => show win0_0.index t (1 : Fin 2) * 128 + 1 * q.val = q.val; omega
  · intro r R hR
    show V c main_v13 (((cfg0.win 1).blk t).view.emb (ix2 r (0 : Fin 1))) = V c main_v13 (ix2 R (0 : Fin 1))
    refine congrArg _ (funext fun a => Fin.ext ?_)
    match a with
    | ⟨0, _⟩ => show win0_1.index t (0 : Fin 2) * 5000 + 1 * r.val = R.val; omega
    | ⟨1, _⟩ => show win0_1.index t (1 : Fin 2) * 1 + 1 * 0 = 0; omega
  · funext y
    show V c main_v2 (((cfg0.win 2).blk t).view.emb y) = V c main_v2 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_v5 (((cfg0.win 3).blk t).view.emb y) = V c main_v5 y
    refine congrArg _ (funext fun a => Fin.ext ?_)
    match a with
    | ⟨0, _⟩ => show win0_3.index t (0 : Fin 2) * 10 + 1 * (y 0).val = (y 0).val; omega
    | ⟨1, _⟩ => show win0_3.index t (1 : Fin 2) * 128 + 1 * (y 1).val = (y 1).val; omega
  · funext y
    show V c main_v6 (((cfg0.win 4).blk t).view.emb y) = V c main_v6 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · funext y
    show V c main_v8 (((cfg0.win 5).blk t).view.emb y) = V c main_v8 y
    refine congrArg _ (funext fun a => Fin.ext ?_)
    match a with
    | ⟨0, _⟩ => show win0_5.index t (0 : Fin 2) * 128 + 1 * (y 0).val = (y 0).val; omega
    | ⟨1, _⟩ => show win0_5.index t (1 : Fin 2) * 96 + 1 * (y 1).val = (y 1).val; omega
  · funext y
    show V c main_v9 (((cfg0.win 6).blk t).view.emb y) = V c main_v9 y
    refine congrArg _ (funext fun a => Fin.ext ?_)
    match a with
    | ⟨0, _⟩ => show win0_6.index t (0 : Fin 2) * 1 + 1 * (y 0).val = (y 0).val; omega
    | ⟨1, _⟩ => show win0_6.index t (1 : Fin 2) * 96 + 1 * (y 1).val = (y 1).val; omega
  · funext y
    show V c main_v12 (((cfg0.win 7).blk t).view.emb y) = V c main_v12 y
    refine congrArg _ (funext fun a => Fin.ext ?_)
    match a with
    | ⟨0, _⟩ => show win0_7.index t (0 : Fin 2) * 96 + 1 * (y 0).val = (y 0).val; omega
    | ⟨1, _⟩ => show win0_7.index t (1 : Fin 2) * 128 + 1 * (y 1).val = (y 1).val; omega
  · show win0_8.index t (0 : Fin 2) * 5000 + 1 * (j 0).val = t.val * 5000 + (j 0).val; omega
  · show win0_8.index t (1 : Fin 2) * 128 + 1 * (j 1).val = (j 1).val; omega

/-- An index of the result array is in point t's block iff each coordinate is in the block's range on its axis. -/
theorem mem_blk0 (t : Fin cfg0.N) (i : S50000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v14).slice (win0_8.rect t)).set ↔ _
  rw [View.set_slice_whole, Rect.mem_set_unit]
  exact Iff.rfl

/-- Every row of the result array is in the block of the point that works on it: row R in point R / 5000's. -/
theorem cover0 (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, -, -, -, -, -, -, e80, e81⟩ := idx_facts0 t
  have ht : t.val = (i 0).val / 5000 := rfl
  refine ⟨t, flush0_8 t, ?_⟩
  rw [mem_blk0]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 128 ≤ (i 1).val ∧ (i 1).val < win0_8.index t (1 : Fin 2) * 128 + 128; omega

/-- The first region's result array after the region. -/
theorem arr0 (c : Dev nD) : (dat0 V c).arrAt 8 cfg0.N
    = X0 (V c main_arg0) (V c main_v13) (V c main_v2) (V c main_v5) (V c main_v6) (V c main_v8) (V c main_v9) (V c main_v12) :=
  (dat0 V c).arrAt_eq_of_cover 8 _ (fun t _ => flushed0_eq V c t) cover0

/-! ## The second region -/

/-- The second region's result array as a function of the arrays it reads: per node (row), the features plus a bias,
    rectified, times the weights, plus the second bias. -/
def Y1 (a0 : S50000x128.Idx → EReal) (a1 : S1x128.Idx → EReal) (a2 : S128x256.Idx → EReal) (a3 : S1x256.Idx → EReal) :
    S50000x256.Idx → EReal :=
  fun i => (∑ k : Fin 128, max (a0 (ix2 (i 0) k) + a1 (ix2 (0 : Fin 1) k)) 0 * a2 (ix2 k (i 1))) + a3 (ix2 (0 : Fin 1) (i 1))

/-- It read at row R, column C. -/
theorem Y1_apply (a0 : S50000x128.Idx → EReal) (a1 : S1x128.Idx → EReal) (a2 : S128x256.Idx → EReal)
    (a3 : S1x256.Idx → EReal) (R : Fin 50000) (C : Fin 256) :
    Y1 a0 a1 a2 a3 (ix2 R C)
      = (∑ k : Fin 128, max (a0 (ix2 R k) + a1 (ix2 (0 : Fin 1) k)) 0 * a2 (ix2 k C)) + a3 (ix2 (0 : Fin 1) C) := rfl

/-- A body run on rows T·5000 … of the node array and on the whole weight arrays leaves, at row r of its block, the
    function's value at row T·5000 + r. -/
theorem Y1_block (a0 : S50000x128.Idx → EReal) (a1 : S1x128.Idx → EReal) (a2 : S128x256.Idx → EReal)
    (a3 : S1x256.Idx → EReal)
    (x0 : Vec Ideal S5000x128 .f32) (x1 : Vec Ideal S1x128 .f32) (x2 : Vec Ideal S128x256 .bf16) (x3 : Vec Ideal S1x256 .f32)
    (T : ℕ)
    (h0 : ∀ (r : Fin 5000) (q : Fin 128) (R : Fin 50000), R.val = T * 5000 + r.val → x0 (ix2 r q) = a0 (ix2 R q))
    (h1 : x1 = a1) (h2 : x2 = a2) (h3 : x3 = a3)
    (j : S5000x256.Idx) (k : S50000x256.Idx) (hk0 : (k 0).val = T * 5000 + (j 0).val) (hk1 : (k 1).val = (j 1).val) :
    out1_4 (F := Ideal) x0 x1 x2 x3 j = Y1 a0 a1 a2 a3 k := by
  obtain ⟨r, cc, rfl⟩ : ∃ (r : Fin 5000) (cc : Fin 256), j = ix2 r cc := ⟨j 0, j 1, eq_ix2 j⟩
  obtain ⟨R, C, rfl⟩ : ∃ (R : Fin 50000) (C : Fin 256), k = ix2 R C := ⟨k 0, k 1, eq_ix2 k⟩
  have hR : R.val = T * 5000 + r.val := hk0
  obtain rfl : C = cc := Fin.ext hk1
  subst h1 h2 h3
  rw [KernBody.out1_4_apply, Y1_apply]
  simp only [fun q => h0 r q R hR]

/-- The block index of each window at each point: the node array and the result move down one block of rows per point,
    the weight arrays stay whole. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the function of the arrays the region found. -/
theorem flushed1_eq (c : Dev nD) (t : Fin cfg1.N) :
    (dat1 V c).flushed 4 t = ((cfg1.win 4).blk t).view.read (Elt Ideal)
      (Y1 (V c main_v44) (V c main_v46) (V c main_v49) (V c main_v50)) := by
  show (cfg1.win 4).cut (grid1.coords t) ((dat1 V c).after 4 t) = _
  rw [after1_4]
  obtain ⟨e00, e01, e10, e11, e20, e21, e30, e31, e40, e41⟩ := idx_facts1 t
  funext j
  show out1_4 (iblk1 V c 0 t) (iblk1 V c 1 t) (iblk1 V c 2 t) (iblk1 V c 3 t) j
    = Y1 (V c main_v44) (V c main_v46) (V c main_v49) (V c main_v50) (((cfg1.win 4).blk t).view.emb j)
  refine Y1_block _ _ _ _ _ _ _ _ t.val ?_ ?_ ?_ ?_ j _ ?_ ?_
  · intro r q R hR
    show V c main_v44 (((cfg1.win 0).blk t).view.emb (ix2 r q)) = V c main_v44 (ix2 R q)
    refine congrArg _ (funext fun a => Fin.ext ?_)
    match a with
    | ⟨0, _⟩ => show win1_0.index t (0 : Fin 2) * 5000 + 1 * r.val = R.val; omega
    | ⟨1, _⟩ => show win1_0.index t (1 : Fin 2) * 128 + 1 * q.val = q.val; omega
  · funext y
    show V c main_v46 (((cfg1.win 1).blk t).view.emb y) = V c main_v46 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  · funext y
    show V c main_v49 (((cfg1.win 2).blk t).view.emb y) = V c main_v49 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 256 + 1 * (y 1).val = (y 1).val; omega
  · funext y
    show V c main_v50 (((cfg1.win 3).blk t).view.emb y) = V c main_v50 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 256 + 1 * (y 1).val = (y 1).val; omega
  · show win1_4.index t (0 : Fin 2) * 5000 + 1 * (j 0).val = t.val * 5000 + (j 0).val; omega
  · show win1_4.index t (1 : Fin 2) * 256 + 1 * (j 1).val = (j 1).val; omega

/-- An index of the result array is in point t's block iff each coordinate is in the block's range on its axis. -/
theorem mem_blk1 (t : Fin cfg1.N) (i : S50000x256.Idx) :
    i ∈ ((cfg1.win 4).blk t).view.set ↔ ∀ a : Fin 2, win1_4.index t a * S5000x256.size a ≤ (i a).val
      ∧ (i a).val < win1_4.index t a * S5000x256.size a + S5000x256.size a := by
  show i ∈ ((View.whole main_v51).slice (win1_4.rect t)).set ↔ _
  rw [View.set_slice_whole, Rect.mem_set_unit]
  exact Iff.rfl

/-- Every row of the result array is in the block of the point that works on it: row R in point R / 5000's. -/
theorem cover1 (i : S50000x256.Idx) : ∃ t : Fin cfg1.N, (cfg1.win 4).flush t = true ∧ i ∈ ((cfg1.win 4).blk t).view.set := by
  have hi0 : (i 0).val < 50000 := (i 0).isLt
  have hi1 : (i 1).val < 256 := (i 1).isLt
  have hN : cfg1.N = 10 := N_1
  let t : Fin cfg1.N := ⟨(i 0).val / 5000, by rw [hN]; omega⟩
  obtain ⟨-, -, -, -, -, -, -, -, e40, e41⟩ := idx_facts1 t
  have ht : t.val = (i 0).val / 5000 := rfl
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 256 ≤ (i 1).val ∧ (i 1).val < win1_4.index t (1 : Fin 2) * 256 + 256; omega

/-- The second region's result array after the region. -/
theorem arr1 (c : Dev nD) : (dat1 V c).arrAt 4 cfg1.N = Y1 (V c main_v44) (V c main_v46) (V c main_v49) (V c main_v50) :=
  (dat1 V c).arrAt_eq_of_cover 4 _ (fun t _ => flushed1_eq V c t) cover1

end Cert.KernCover

end
-- ==== Proof.LibKeepdims.lean ====
/-
  Two layout reads every `keepdims` reduction along the last axis meets, in the style of the value library's small-shape
  lemmas: a length-`a` vector viewed as an `a × 1` column, and an `a × 1` column spread over `b` lanes.
  With them a row statistic (a sum, a mean, a reciprocal deviation) computed once per row is read, at any entry of the
  row, as that row's value.
-/
import Idealize.ShloMosaic.Lib.Pipeline.Value
import Idealize.ShloMosaic.Lib.ValueIdx
import Idealize.ShloMosaic.Lib.ValueLayout

namespace Idealize.ShloMosaic.ValueIdx

variable {α : Type}

/-- An `[a]` array cast to a column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernHost0.lean ====
/-
  What the first region finds in its input arrays, entry by entry, as functions of the arguments.

  Before the first region the host only re-lays the parameters: W1's first 128 columns and its last 10 are cut apart and
  each transposed (entry (q, j) of the piece is W1 at (j, q), respectively (j, 128 + q)); W2 is transposed; gW is extended
  by 32 zero rows and transposed, so that entry (k, c) of the result is gW at (c, k) for c < 96; the two bias vectors become
  one-row matrices; the class vector becomes a column. A change of float format is the identity on the extended reals. The
  node features are the argument itself.
-/
import proofs.«182204_j87729001988299_2_alg».proof.Proof.Gen.KernelIdeal.Frame
import proofs.«182204_j87729001988299_2_alg».proof.Proof.LibKeepdims
import Idealize.ShloMosaic.Lib.StableHlo.Run
import Idealize.ShloMosaic.Lib.ValueIdx
import Idealize.ShloMosaic.Lib.ValueLayout
import Idealize.ShloMosaic.Lib.KernelVsHost
import Idealize.ShloMosaic.Lib.Pipeline.Value

set_option maxRecDepth 16384

noncomputable section

namespace Cert.KernHost0

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## Each array as its operations' term of the launch memory -/

theorem V3_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results
  try rfl

theorem V3_v13 (c : Dev nD) :
    V3 m ρ c main_v13 = shapeCast S50000x1 (m ((c : Thread nD τ).loc main_arg1)) shapeCasts_S50000_S50000x1 := by
  show StableHlo.after hostOps0_2 (StableHlo.after hostOps0_1 (StableHlo.after hostOps0 (W0 m ρ c))) (Proc.devRef .tc main_v13) = _
  dsimp only [hostOps0, hostOps0_1, hostOps0_2]
  after_results
  try rfl

theorem V3_v2 (c : Dev nD) :
    V3 m ρ c main_v2
      = transpose S128x128 [1, 0] (extractStridedSlice S128x128 ![0, 0] (m ((c : Thread nD τ).loc main_arg3)) slices_S128x138_S128x128_0_0) transposes_S128x128_S128x128_1_0 := by
  show StableHlo.after hostOps0_2 (StableHlo.after hostOps0_1 (StableHlo.after hostOps0 (W0 m ρ c))) (Proc.devRef .tc main_v2) = _
  dsimp only [hostOps0, hostOps0_1, hostOps0_2]
  after_results
  try rfl

theorem V3_v5 (c : Dev nD) :
    V3 m ρ c main_v5
      = transpose S10x128 [1, 0] (extractStridedSlice S128x10 ![0, 128] (m ((c : Thread nD τ).loc main_arg3)) slices_S128x138_S128x10_0_128) transposes_S128x10_S10x128_1_0 := by
  show StableHlo.after hostOps0_2 (StableHlo.after hostOps0_1 (StableHlo.after hostOps0 (W0 m ρ c))) (Proc.devRef .tc main_v5) = _
  dsimp only [hostOps0, hostOps0_1, hostOps0_2]
  after_results
  try rfl

theorem V3_v6 (c : Dev nD) :
    V3 m ρ c main_v6 = shapeCast S1x128 (m ((c : Thread nD τ).loc main_arg4)) shapeCasts_S128_S1x128 := by
  show StableHlo.after hostOps0_2 (StableHlo.after hostOps0_1 (StableHlo.after hostOps0 (W0 m ρ c))) (Proc.devRef .tc main_v6) = _
  dsimp only [hostOps0, hostOps0_1, hostOps0_2]
  after_results
  try rfl

theorem V3_v8 (c : Dev nD) :
    V3 m ρ c main_v8
      = transpose S128x96 [1, 0] (m ((c : Thread nD τ).loc main_arg5)) transposes_S96x128_S128x96_1_0 := by
  show StableHlo.after hostOps0_2 (StableHlo.after hostOps0_1 (StableHlo.after hostOps0 (W0 m ρ c))) (Proc.devRef .tc main_v8) = _
  dsimp only [hostOps0, hostOps0_1, hostOps0_2]
  after_results
  try rfl

theorem V3_v9 (c : Dev nD) :
    V3 m ρ c main_v9 = shapeCast S1x96 (m ((c : Thread nD τ).loc main_arg6)) shapeCasts_S96_S1x96 := by
  show StableHlo.after hostOps0_2 (StableHlo.after hostOps0_1 (StableHlo.after hostOps0 (W0 m ρ c))) (Proc.devRef .tc main_v9) = _
  dsimp only [hostOps0, hostOps0_1, hostOps0_2]
  after_results
  try rfl

theorem V3_v12 (c : Dev nD) :
    V3 m ρ c main_v12
      = transpose S96x128 [1, 0] (pad S128x96 ![0, 0] ![32, 0] ![0, 0] (m ((c : Thread nD τ).loc main_arg7)) (sitofp (F := Ideal) .f32 (constantI S_ 32 0#32)) pads_S96x96_S128x96_0320_000 h_S_) transposes_S128x96_S96x128_1_0 := by
  show StableHlo.after hostOps0_2 (StableHlo.after hostOps0_1 (StableHlo.after hostOps0 (W0 m ρ c))) (Proc.devRef .tc main_v12) = _
  dsimp only [hostOps0, hostOps0_1, hostOps0_2]
  after_results
  try rfl

/-! ## Read at an index -/

/-- The class column at row n is node n's class. -/
theorem v13_at (c : Dev nD) (n : Fin 50000) :
    V3 m ρ c main_v13 (ix2 n (0 : Fin 1)) = m ((c : Thread nD τ).loc main_arg1) (ix1 n) := by
  rw [V3_v13]
  exact shapeCast_a_a1_apply _ _ n 0

/-- Entry (q, j) of the features' part of W1, transposed, is W1 at (j, q). -/
theorem v2_at (c : Dev nD) (q j : Fin 128) :
    V3 m ρ c main_v2 (ix2 q j)
      = m ((c : Thread nD τ).loc main_arg3) (ix2 j (⟨q.val, Nat.lt_of_lt_of_le q.isLt (by decide)⟩ : Fin 138)) := by
  rw [V3_v2]
  rw [transpose_ix2_apply]
  exact slice2_axis1_apply 0 _ _ j q _ (by show q.val = 0 + q.val; omega)

/-- Entry (q, j) of the classes' part of W1, transposed, is W1 at (j, 128 + q). -/
theorem v5_at (c : Dev nD) (q : Fin 10) (j : Fin 128) :
    V3 m ρ c main_v5 (ix2 q j)
      = m ((c : Thread nD τ).loc main_arg3) (ix2 j (⟨128 + q.val, by have := q.isLt; omega⟩ : Fin 138)) := by
  rw [V3_v5]
  rw [transpose_ix2_apply]
  exact slice2_axis1_apply 128 _ _ j q _ rfl

/-- The first bias as a one-row matrix. -/
theorem v6_at (c : Dev nD) (j : Fin 128) :
    V3 m ρ c main_v6 (ix2 (0 : Fin 1) j) = m ((c : Thread nD τ).loc main_arg4) (ix1 j) := by
  rw [V3_v6]
  exact shapeCast_a_1a_apply _ _ 0 j

/-- Entry (j, k) of W2 transposed is W2 at (k, j). -/
theorem v8_at (c : Dev nD) (j : Fin 128) (k : Fin 96) :
    V3 m ρ c main_v8 (ix2 j k) = m ((c : Thread nD τ).loc main_arg5) (ix2 k j) := by
  rw [V3_v8]
  exact transpose_ix2_apply _ _ j k

/-- The second bias as a one-row matrix. -/
theorem v9_at (c : Dev nD) (k : Fin 96) :
    V3 m ρ c main_v9 (ix2 (0 : Fin 1) k) = m ((c : Thread nD τ).loc main_arg6) (ix1 k) := by
  rw [V3_v9]
  exact shapeCast_a_1a_apply _ _ 0 k

/-- Entry (k, c) of gW extended by zero rows and transposed is gW at (c, k), for a column c below 96. -/
theorem v12_at (c : Dev nD) (k : Fin 96) (cc : Fin 96) :
    V3 m ρ c main_v12 (ix2 k (⟨cc.val, Nat.lt_of_lt_of_le cc.isLt (by decide)⟩ : Fin 128))
      = m ((c : Thread nD τ).loc main_arg7) (ix2 cc k) := by
  rw [V3_v12]
  rw [transpose_ix2_apply]
  refine pad_apply_of_inside _ _ _ _ _ _ _ _ (ix2 cc k) fun a => ?_
  match a with
  | ⟨0, _⟩ => show cc.val = 0 + cc.val * (0 + 1); omega
  | ⟨1, _⟩ => show k.val = 0 + k.val * (0 + 1); omega

end Cert.KernHost0

end
-- ==== Proof.LibRowScatter.lean ====
/-
  The host's accumulating scatter of whole rows, read at an index, at the ideal values.

  What `segment_sum(data, ids, num_segments = N)` lowers to: a `stablehlo.scatter` with an `add` body of an E×C array
  of updates into an N×C operand, the scatter indices an E×1 column — update row `e` is added into operand row `ids[e]`,
  the index read as a signed integer and NOT clamped: an update whose index is negative or at least N is dropped. For a
  vector of E updates into a vector of N cells it is the same with the column axis absent.

  At the ideal values such a scatter is an exact sum, so entry (n, c) of the result is the operand's entry plus the sum,
  over the update rows e whose index is n, of the updates' entries (e, c): the set of contributing rows depends on n
  only, not on the column. That is the content of this file, `rows_apply` and `cells_apply`.
-/
import Idealize.ShloMosaic.PureOps.Ideal.Laws
import Idealize.ShloMosaic.Lib.ValueIdx

noncomputable section

open scoped BigOperators

namespace Idealize.ShloMosaic.RowScatter

open Idealize.ShloMosaic Idealize.ShloMosaic.ValueIdx

variable {N E C w : Nat}

/-- The dimension numbers of a scatter of E rows of width C into an N×C operand, the indices an E×1 column. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of E scalars into a vector of N cells, the indices an E×1 column. -/
abbrev cellsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row update `e` is sent to: its scatter index, read as a signed integer. -/
def dest (idx : IVec ⟨2, ![E, 1]⟩ w) (e : Fin E) : Int := (idx (ix2 e (0 : Fin 1))).toInt

/-! ## Rows -/

section Rows
variable (wf : ScatterDims.WF ⟨2, ![N, C]⟩ ⟨2, ![E, 1]⟩ ⟨2, ![E, C]⟩ [1] [0] [0] 1)

theorem rows_start0 (j : (⟨2, ![E, C]⟩ : Shape).Idx) (idx : IVec ⟨2, ![E, 1]⟩ w) :
    (rowsDims N E C wf).start j idx 0 = dest idx (j 0) := by
  unfold ScatterDims.start dest
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

theorem rows_start1 (j : (⟨2, ![E, C]⟩ : Shape).Idx) (idx : IVec ⟨2, ![E, 1]⟩ w) :
    (rowsDims N E C wf).start j idx 1 = 0 := by
  unfold ScatterDims.start
  rw [dif_neg (fun h => absurd (congrArg Fin.val (List.mem_singleton.mp h)) Nat.one_ne_zero)]

theorem rows_window0 (j : (⟨2, ![E, C]⟩ : Shape).Idx) : (rowsDims N E C wf).window j 0 = 0 := by
  unfold ScatterDims.window
  rw [dif_neg (fun h => by simp [ScatterDims.sKept, Shape.kept] at h)]

theorem rows_window1 (j : (⟨2, ![E, C]⟩ : Shape).Idx) : (rowsDims N E C wf).window j 1 = (j 1).val := by
  unfold ScatterDims.window
  rw [dif_pos (by simp [ScatterDims.sKept, Shape.kept])]
  rfl

/-- Update (e, c') lands on operand entry (n, c) exactly when the index of row e is n and the columns agree. -/
theorem rows_lands (idx : IVec ⟨2, ![E, 1]⟩ w) (e : Fin E) (c' : Fin C) (n : Fin N) (c : Fin C) :
    (rowsDims N E C wf).resultIdx? (ix2 e c') idx = some (ix2 n c) ↔ dest idx e = (n.val : Int) ∧ c' = c := by
  unfold ScatterDims.resultIdx?
  have s0 : (rowsDims N E C wf).start (ix2 e c') idx 0 = dest idx e := rows_start0 wf (ix2 e c') idx
  have s1 : (rowsDims N E C wf).start (ix2 e c') idx 1 = 0 := rows_start1 wf (ix2 e c') idx
  have w0 : (rowsDims N E C wf).window (ix2 e c') 0 = 0 := rows_window0 wf (ix2 e c')
  have w1 : (rowsDims N E C wf).window (ix2 e c') 1 = c'.val := rows_window1 wf (ix2 e c')
  split
  · rename_i h
    rw [Option.some.injEq]
    constructor
    · intro hf
      have h0 := congrArg (fun f => (f 0).val) hf
      have h1 := congrArg (fun f => (f 1).val) hf
      simp only [s0, s1, w0, w1] at h0 h1
      have hn := (h 0).1
      rw [s0, w0] at hn
      refine ⟨?_, Fin.ext ?_⟩
      · show dest idx e = (n.val : Int)
        have : ((dest idx e + ((0 : Nat) : Int)).toNat : Nat) = n.val := h0
        omega
      · have : ((0 : Int) + ((c'.val : Nat) : Int)).toNat = c.val := h1
        omega
    · rintro ⟨hd, rfl⟩
      funext a; refine Fin.ext ?_
      match a with
      | ⟨0, _⟩ =>
        show ((rowsDims N E C wf).start (ix2 e c') idx 0 + ((rowsDims N E C wf).window (ix2 e c') 0 : Nat)).toNat = n.val
        rw [s0, w0, hd]; omega
      | ⟨1, _⟩ =>
        show ((rowsDims N E C wf).start (ix2 e c') idx 1 + ((rowsDims N E C wf).window (ix2 e c') 1 : Nat)).toNat = c'.val
        rw [s1, w1]; omega
  · rename_i h
    constructor
    · intro hf; exact absurd hf (by simp)
    · rintro ⟨hd, rfl⟩
      exfalso; apply h
      intro a
      match a with
      | ⟨0, _⟩ =>
        show 0 ≤ (rowsDims N E C wf).start (ix2 e c') idx 0 + ((rowsDims N E C wf).window (ix2 e c') 0 : Nat)
          ∧ (rowsDims N E C wf).start (ix2 e c') idx 0 + ((rowsDims N E C wf).window (ix2 e c') 0 : Nat) < (N : Int)
        rw [s0, w0, hd]; have := n.isLt; omega
      | ⟨1, _⟩ =>
        show 0 ≤ (rowsDims N E C wf).start (ix2 e c') idx 1 + ((rowsDims N E C wf).window (ix2 e c') 1 : Nat)
          ∧ (rowsDims N E C wf).start (ix2 e c') idx 1 + ((rowsDims N E C wf).window (ix2 e c') 1 : Nat) < (C : Int)
        rw [s1, w1]; have := c'.isLt; omega

/-- THE ROW SCATTER READ AT (n, c): the operand's entry plus the sum over the update rows sent to row n of their
    entries in column c. -/
theorem rows_apply {φ : FTy} (x : FVec Ideal ⟨2, ![N, C]⟩ φ) (idx : IVec ⟨2, ![E, 1]⟩ w) (upd : FVec Ideal ⟨2, ![E, C]⟩ φ)
    (n : Fin N) (c : Fin C) :
    Host.scatterAdd (rowsDims N E C wf) x idx upd (ix2 n c)
      = x (ix2 n c) + ∑ e ∈ Finset.univ.filter (fun e : Fin E => dest idx e = (n.val : Int)), upd (ix2 e c) := by
  show Ideal.hostScatterAdd (rowsDims N E C wf) x idx upd (ix2 n c) = _
  unfold Ideal.hostScatterAdd
  congr 1
  rw [Finset.sum_filter, Finset.sum_filter, sum_idx2]
  refine Finset.sum_congr rfl fun e _ => ?_
  by_cases hd : dest idx e = (n.val : Int)
  · rw [if_pos hd, Finset.sum_eq_single c]
    · rw [if_pos ((rows_lands wf idx e c n c).mpr ⟨hd, rfl⟩)]
    · intro c' _ hne
      rw [if_neg (fun h => hne ((rows_lands wf idx e c' n c).mp h).2)]
    · intro h; exact absurd (Finset.mem_univ c) h
  · rw [if_neg hd]
    exact Finset.sum_eq_zero fun c' _ => if_neg (fun h => hd ((rows_lands wf idx e c' n c).mp h).1)

end Rows

/-! ## Cells -/

section Cells
variable (wf : ScatterDims.WF ⟨1, ![N]⟩ ⟨2, ![E, 1]⟩ ⟨1, ![E]⟩ [] [0] [0] 1)

theorem cells_start0 (j : (⟨1, ![E]⟩ : Shape).Idx) (idx : IVec ⟨2, ![E, 1]⟩ w) :
    (cellsDims N E wf).start j idx 0 = dest idx (j 0) := by
  unfold ScatterDims.start dest
  rw [dif_pos (show (0 : Fin 1) ∈ (cellsDims N E wf).scatterDimsToOperandDims from List.mem_singleton.mpr rfl)]
  congr 2
  funext b; refine Fin.ext ?_
  match b with
  | ⟨0, _⟩ => rfl
  | ⟨1, _⟩ => rfl

theorem cells_window0 (j : (⟨1, ![E]⟩ : Shape).Idx) : (cellsDims N E wf).window j 0 = 0 := by
  unfold ScatterDims.window
  rw [dif_neg (fun h => by simp [ScatterDims.sKept, Shape.kept] at h)]

/-- Update e lands on cell n exactly when its index is n. -/
theorem cells_lands (idx : IVec ⟨2, ![E, 1]⟩ w) (e : Fin E) (n : Fin N) :
    (cellsDims N E wf).resultIdx? (ix1 e) idx = some (ix1 n) ↔ dest idx e = (n.val : Int) := by
  unfold ScatterDims.resultIdx?
  have s0 : (cellsDims N E wf).start (ix1 e) idx 0 = dest idx e := cells_start0 wf (ix1 e) idx
  have w0 : (cellsDims N E wf).window (ix1 e) 0 = 0 := cells_window0 wf (ix1 e)
  split
  · rename_i h
    rw [Option.some.injEq]
    constructor
    · intro hf
      have h0 := congrArg (fun f => (f 0).val) hf
      simp only [s0, w0] at h0
      have hn := (h 0).1
      rw [s0, w0] at hn
      have : ((dest idx e + ((0 : Nat) : Int)).toNat : Nat) = n.val := h0
      omega
    · intro hd
      funext a; refine Fin.ext ?_
      match a with
      | ⟨0, _⟩ =>
        show ((cellsDims N E wf).start (ix1 e) idx 0 + ((cellsDims N E wf).window (ix1 e) 0 : Nat)).toNat = n.val
        rw [s0, w0, hd]; omega
  · rename_i h
    constructor
    · intro hf; exact absurd hf (by simp)
    · intro hd
      exfalso; apply h
      intro a
      match a with
      | ⟨0, _⟩ =>
        show 0 ≤ (cellsDims N E wf).start (ix1 e) idx 0 + ((cellsDims N E wf).window (ix1 e) 0 : Nat)
          ∧ (cellsDims N E wf).start (ix1 e) idx 0 + ((cellsDims N E wf).window (ix1 e) 0 : Nat) < (N : Int)
        rw [s0, w0, hd]; have := n.isLt; omega

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    ⟨fun i => i 0, fun a => ix1 a, fun i => (eq_ix1 i).symm, fun _ => rfl⟩
  rw [← Equiv.sum_comp eqv.symm f]
  rfl

/-- THE CELL SCATTER READ AT n: the operand's entry plus the sum of the updates sent to cell n. -/
theorem cells_apply {φ : FTy} (x : FVec Ideal ⟨1, ![N]⟩ φ) (idx : IVec ⟨2, ![E, 1]⟩ w) (upd : FVec Ideal ⟨1, ![E]⟩ φ)
    (n : Fin N) :
    Host.scatterAdd (cellsDims N E wf) x idx upd (ix1 n)
      = x (ix1 n) + ∑ e ∈ Finset.univ.filter (fun e : Fin E => dest idx e = (n.val : Int)), upd (ix1 e) := by
  show Ideal.hostScatterAdd (cellsDims N E wf) x idx upd (ix1 n) = _
  unfold Ideal.hostScatterAdd
  congr 1
  rw [Finset.sum_filter, Finset.sum_filter, sum_idx1]
  refine Finset.sum_congr rfl fun e _ => ?_
  by_cases hd : dest idx e = (n.val : Int)
  · rw [if_pos hd, if_pos ((cells_lands wf idx e n).mpr hd)]
  · rw [if_neg hd, if_neg (fun h => hd ((cells_lands wf idx e n).mp h))]

end Cells

end Idealize.ShloMosaic.RowScatter

end
-- ==== Proof.KernHost1.lean ====
/-
  What the second region finds in its input arrays, as functions of the first region's result array X and of the
  arguments.

  Between the regions the host computes, from the edge list: the degree of each node (the edges into it counted by an
  accumulating scatter of ones, plus one for its own loop), dinv = 1/√degree where the degree is positive and 0 elsewhere;
  the rows of X scaled by dinv (`xs`); for each node the sum of the scaled rows of the sources of the edges into it (a
  gather of whole rows through the wrapped, clamped source indices, then an accumulating scatter by destination), to which
  the node's own scaled row is added and the sum scaled by dinv again (`kAgg`). The parameters of the read-out are re-laid:
  gb is extended by 32 zeros to a one-row matrix, Wf is extended by 32 zero columns and transposed, bf becomes a row.
-/
import proofs.«182204_j87729001988299_2_alg».proof.Proof.Gen.KernelIdeal.Frame
import proofs.«182204_j87729001988299_2_alg».proof.Proof.LibKeepdims
import proofs.«182204_j87729001988299_2_alg».proof.Proof.LibRowScatter
import proofs.«182204_j87729001988299_2_alg».proof.Proof.LibEdgeGather
import proofs.«182204_j87729001988299_2_alg».proof.Proof.GcnSpec
import Idealize.ShloMosaic.Lib.StableHlo.Run
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

set_option maxRecDepth 16384

noncomputable section

open scoped BigOperators

namespace Cert.KernHost1

open Idealize.ShloMosaic Idealize.ShloMosaic.TcCoe Idealize.ShloMosaic.ValueIdx Idealize.SL.Sem Idealize.ShloMosaic.StableHlo
open Cert.KernelIdeal Cert.KernelIdeal.Gen

/-! ## The stages -/

section Stages
variable {F : FTy → Type} [FloatOps F]
variable (X : (⟨S50000x128, .f32⟩ : BufTy).Contents (Elt F)) (ei : (⟨S2x800000, .i32⟩ : BufTy).Contents (Elt F))

/-- The edges' destinations, as the column the scatters are indexed by. -/
def dstCol : (⟨S800000x1, .i32⟩ : BufTy).Contents (Elt F) :=
  broadcastInDim S800000x1 ![0] bcast_S800000_S800000x1_0
    (shapeCast S800000 (extractStridedSlice S1x800000 ![1, 0] ei slices_S2x800000_S1x800000_1_0) shapeCasts_S1x800000_S800000)

/-- The edges' sources. -/
def srcVec : (⟨S800000, .i32⟩ : BufTy).Contents (Elt F) :=
  shapeCast S800000 (extractStridedSlice S1x800000 ![0, 0] ei slices_S2x800000_S1x800000_0_0) shapeCasts_S1x800000_S800000

/-- The sources wrapped (a negative index has 50000 added), as the column the gather is indexed by. -/
def srcCol : (⟨S800000x1, .i32⟩ : BufTy).Contents (Elt F) :=
  broadcastInDim S800000x1 ![0] bcast_S800000_S800000x1_0
    (select (cmpi .slt (srcVec (F := F) ei) (broadcastInDim S800000 ![] bcast_S_S800000 (constantI S_ 32 0#32)))
      (addi (srcVec (F := F) ei) (broadcastInDim S800000 ![] bcast_S_S800000 (constantI S_ 32 50000#32))) (srcVec (F := F) ei))

/-- The degrees. -/
def kDeg : (⟨S50000, .f32⟩ : BufTy).Contents (Elt F) :=
  addf (F := F) (φ := .f32) (Host.scatterAdd scatter_S50000_S800000x1_S800000_n_0_0_1
      (broadcastInDim S50000 ![] bcast_S_S50000 (constant (F := F) S_ .f32 0x00000000#32)) (dstCol (F := F) ei)
      (broadcastInDim S800000 ![] bcast_S_S800000 (constant (F := F) S_ .f32 0x3F800000#32)))
    (broadcastInDim S50000 ![] bcast_S_S50000 (constant (F := F) S_ .f32 0x3F800000#32))

/-- 1/√degree where the degree is positive, 0 elsewhere. -/
def kDinv : (⟨S50000, .f32⟩ : BufTy).Contents (Elt F) :=
  select (cmpf (F := F) (φ := .f32) .ogt (kDeg (F := F) ei) (broadcastInDim S50000 ![] bcast_S_S50000 (constant (F := F) S_ .f32 0x00000000#32)))
    (Host.rsqrt (F := F) (φ := .f32) (kDeg (F := F) ei))
    (broadcastInDim S50000 ![] bcast_S_S50000 (id (constant (F := F) S_ .f32 0x00000000#32)))

/-- dinv as a column, spread over the 128 lanes. -/
def kDinvMat : (⟨S50000x128, .f32⟩ : BufTy).Contents (Elt F) :=
  broadcastInDim S50000x128 ![0, 1] bcast_S50000x1_S50000x128_0_1 (shapeCast S50000x1 (kDinv (F := F) ei) shapeCasts_S50000_S50000x1)

/-- The rows of X scaled by dinv. -/
def kXs : (⟨S50000x128, .f32⟩ : BufTy).Contents (Elt F) := mulf (F := F) (φ := .f32) X (kDinvMat (F := F) ei)

/-- The aggregate the second region reads. -/
def kAgg : (⟨S50000x128, .f32⟩ : BufTy).Contents (Elt F) :=
  mulf (F := F) (φ := .f32) (kDinvMat (F := F) ei)
    (addf (F := F) (φ := .f32)
      (Host.scatterAdd scatter_S50000x128_S800000x1_S800000x128_1_0_0_1
        (broadcastInDim S50000x128 ![] bcast_S_S50000x128 (constant (F := F) S_ .f32 0x00000000#32)) (dstCol (F := F) ei)
        (Host.gather gather_S50000x128_S800000x1_S800000x128_1_0_n_n_0_1_1128 (kXs (F := F) X ei) (srcCol (F := F) ei)))
      (kXs (F := F) X ei))

end Stages

/-! ## The second region's arrays as the stages' terms -/

section AnyValues
variable {F : FTy → Type} [FloatOps F]
variable (m : (ℓ : Loc nD τ sig) → Buf (Elt F) ℓ) (ρ : Dev nD → PrngReg)

/-- An argument the first region does not touch is, at its exit, what the launch memory holds. -/
theorem W4_arg2 (c : Dev nD) : W4 m ρ c (Proc.devRef .tc main_arg2) = m ((c : Thread nD τ).loc main_arg2) := by
  rw [W4_of_ne m ρ c main_arg2 (by decide)]
  show StableHlo.after hostOps0_2 (StableHlo.after hostOps0_1 (StableHlo.after hostOps0 (W0 m ρ c))) (Proc.devRef .tc main_arg2) = _
  dsimp only [hostOps0, hostOps0_1, hostOps0_2]
  after_results
  try rfl

theorem W4_arg8 (c : Dev nD) : W4 m ρ c (Proc.devRef .tc main_arg8) = m ((c : Thread nD τ).loc main_arg8) := by
  rw [W4_of_ne m ρ c main_arg8 (by decide)]
  show StableHlo.after hostOps0_2 (StableHlo.after hostOps0_1 (StableHlo.after hostOps0 (W0 m ρ c))) (Proc.devRef .tc main_arg8) = _
  dsimp only [hostOps0, hostOps0_1, hostOps0_2]
  after_results
  try rfl

theorem W4_arg9 (c : Dev nD) : W4 m ρ c (Proc.devRef .tc main_arg9) = m ((c : Thread nD τ).loc main_arg9) := by
  rw [W4_of_ne m ρ c main_arg9 (by decide)]
  show StableHlo.after hostOps0_2 (StableHlo.after hostOps0_1 (StableHlo.after hostOps0 (W0 m ρ c))) (Proc.devRef .tc main_arg9) = _
  dsimp only [hostOps0, hostOps0_1, hostOps0_2]
  after_results
  try rfl

theorem W4_arg10 (c : Dev nD) : W4 m ρ c (Proc.devRef .tc main_arg10) = m ((c : Thread nD τ).loc main_arg10) := by
  rw [W4_of_ne m ρ c main_arg10 (by decide)]
  show StableHlo.after hostOps0_2 (StableHlo.after hostOps0_1 (StableHlo.after hostOps0 (W0 m ρ c))) (Proc.devRef .tc main_arg10) = _
  dsimp only [hostOps0, hostOps0_1, hostOps0_2]
  after_results
  try rfl

set_option maxHeartbeats 4000000 in
theorem V11_v44 (c : Dev nD) :
    V11 m ρ c main_v44 = kAgg (W4 m ρ c (Proc.devRef .tc main_v14)) (W4 m ρ c (Proc.devRef .tc main_arg2)) := by
  show StableHlo.after hostOps1_6 (StableHlo.after hostOps1_5 (StableHlo.after hostOps1_4 (StableHlo.after hostOps1_3
    (StableHlo.after hostOps1_2 (StableHlo.after hostOps1_1 (StableHlo.after hostOps1 (W4 m ρ c))))))) (Proc.devRef .tc main_v44) = _
  dsimp only [hostOps1, hostOps1_1, hostOps1_2, hostOps1_3, hostOps1_4, hostOps1_5, hostOps1_6]
  after_results_simp
  unfold kAgg kXs kDinvMat kDinv kDeg dstCol srcCol srcVec
  rfl

end AnyValues

section AtIdeal
variable (m : (ℓ : Loc nD τ sig) → Buf (Elt Ideal) ℓ) (ρ : Dev nD → PrngReg)

set_option maxHeartbeats 4000000 in
theorem V11_v46 (c : Dev nD) :
    V11 m ρ c main_v46
      = shapeCast S1x128 (pad S128 ![0] ![32] ![0] (W4 m ρ c (Proc.devRef .tc main_arg8)) (sitofp (F := Ideal) .f32 (constantI S_ 32 0#32)) pads_S96_S128_0320 h_S_) shapeCasts_S128_S1x128 := by
  show StableHlo.after hostOps1_6 (StableHlo.after hostOps1_5 (StableHlo.after hostOps1_4 (StableHlo.after hostOps1_3
    (StableHlo.after hostOps1_2 (StableHlo.after hostOps1_1 (StableHlo.after hostOps1 (W4 m ρ c))))))) (Proc.devRef .tc main_v46) = _
  dsimp only [hostOps1, hostOps1_1, hostOps1_2, hostOps1_3, hostOps1_4, hostOps1_5, hostOps1_6]
  after_results_simp
  try rfl

set_option maxHeartbeats 4000000 in
theorem V11_v49 (c : Dev nD) :
    V11 m ρ c main_v49
      = transpose S128x256 [1, 0] (pad S256x128 ![0, 0] ![0, 32] ![0, 0] (W4 m ρ c (Proc.devRef .tc main_arg9)) (sitofp (F := Ideal) .f32 (constantI S_ 32 0#32)) pads_S256x96_S256x128_000_0320 h_S_) transposes_S256x128_S128x256_1_0 := by
  show StableHlo.after hostOps1_6 (StableHlo.after hostOps1_5 (StableHlo.after hostOps1_4 (StableHlo.after hostOps1_3
    (StableHlo.after hostOps1_2 (StableHlo.after hostOps1_1 (StableHlo.after hostOps1 (W4 m ρ c))))))) (Proc.devRef .tc main_v49) = _
  dsimp only [hostOps1, hostOps1_1, hostOps1_2, hostOps1_3, hostOps1_4, hostOps1_5, hostOps1_6]
  after_results_simp
  try rfl

set_option maxHeartbeats 4000000 in
theorem V11_v50 (c : Dev nD) :
    V11 m ρ c main_v50 = shapeCast S1x256 (W4 m ρ c (Proc.devRef .tc main_arg10)) shapeCasts_S256_S1x256 := by
  show StableHlo.after hostOps1_6 (StableHlo.after hostOps1_5 (StableHlo.after hostOps1_4 (StableHlo.after hostOps1_3
    (StableHlo.after hostOps1_2 (StableHlo.after hostOps1_1 (StableHlo.after hostOps1 (W4 m ρ c))))))) (Proc.devRef .tc main_v50) = _
  dsimp only [hostOps1, hostOps1_1, hostOps1_2, hostOps1_3, hostOps1_4, hostOps1_5, hostOps1_6]
  after_results_simp
  try rfl

end AtIdeal

/-! ## The stages read at an index -/

section Read
variable (X : (⟨S50000x128, .f32⟩ : BufTy).Contents (Elt Ideal)) (ei : (⟨S2x800000, .i32⟩ : BufTy).Contents (Elt Ideal))

/-- Entry e of the destination column is row 1 of the edge list at e. -/
theorem dstCol_at (e : Fin 800000) : dstCol (F := Ideal) ei (ix2 e (0 : Fin 1)) = ei (ix2 (1 : Fin 2) e) := by
  unfold dstCol
  rw [broadcastInDim_apply ![0] bcast_S800000_S800000x1_0 _ (ix2 e (0 : Fin 1)) (ix1 e) (fun a => by
    match a with
    | ⟨0, _⟩ => show e.val = if (800000 : Nat) = 1 then 0 else e.val; rw [if_neg (by decide)])]
  rw [shapeCast_1a_a_apply]
  exact slice2_axis0_apply 1 _ _ (0 : Fin 1) e (1 : Fin 2) rfl

/-- Entry e of the source vector is row 0 of the edge list at e. -/
theorem srcVec_at (e : Fin 800000) : srcVec (F := Ideal) ei (ix1 e) = ei (ix2 (0 : Fin 2) e) := by
  unfold srcVec
  rw [shapeCast_1a_a_apply]
  exact slice2_axis0_apply 0 _ _ (0 : Fin 1) e (0 : Fin 2) rfl

/-- Entry e of the gather's index column is the wrapped source of edge e. -/
theorem srcCol_at (e : Fin 800000) : srcCol (F := Ideal) ei (ix2 e (0 : Fin 1)) = Cert.Gcn.wrap (ei (ix2 (0 : Fin 2) e)) := by
  unfold srcCol
  rw [broadcastInDim_apply ![0] bcast_S800000_S800000x1_0 _ (ix2 e (0 : Fin 1)) (ix1 e) (fun a => by
    match a with
    | ⟨0, _⟩ => show e.val = if (800000 : Nat) = 1 then 0 else e.val; rw [if_neg (by decide)])]
  show Scalar.select (IntOp.cmpi .slt (srcVec (F := Ideal) ei (ix1 e)) 0#32) (IntOp.addi (srcVec (F := Ideal) ei (ix1 e)) 50000#32) (srcVec (F := Ideal) ei (ix1 e)) = _
  rw [srcVec_at]
  rfl

theorem dest_dstCol (e : Fin 800000) : RowScatter.dest (dstCol (F := Ideal) ei) e = Cert.Gcn.dst ei e := by
  unfold RowScatter.dest Cert.Gcn.dst
  rw [dstCol_at]

theorem filter_dest (d : Fin 50000) :
    (Finset.univ.filter fun e : Fin 800000 => RowScatter.dest (dstCol (F := Ideal) ei) e = (d.val : Int)) = Cert.Gcn.into ei d := by
  unfold Cert.Gcn.into
  exact Finset.filter_congr fun e _ => by rw [dest_dstCol]

theorem pos_srcCol (e : Fin 800000) :
    Cert.Lib.EdgeGather.pos 50000 (by decide) (srcCol (F := Ideal) ei (ix2 e (0 : Fin 1))) = Cert.Gcn.src ei e := by
  rw [srcCol_at]
  rfl

/-- The degree of node d. -/
theorem kDeg_at (d : Fin 50000) : kDeg (F := Ideal) ei (ix1 d) = Cert.Gcn.deg ei d := by
  unfold kDeg
  rw [addf_apply]
  have h := RowScatter.cells_apply (N := 50000) (E := 800000) scatter_S50000_S800000x1_S800000_n_0_0_1_wf
    (broadcastInDim S50000 ![] bcast_S_S50000 (constant (F := Ideal) S_ .f32 0x00000000#32)) (dstCol (F := Ideal) ei)
    (broadcastInDim S800000 ![] bcast_S_S800000 (constant (F := Ideal) S_ .f32 0x3F800000#32)) d
  rw [filter_dest] at h
  unfold Cert.Gcn.deg
  refine congrArg₂ (· + ·) (h.trans ?_) rfl
  refine congrArg₂ (· + ·) ?_ rfl
  exact Ideal.ofBits_zero_f32

/-- dinv of node d. -/
theorem kDinv_at (d : Fin 50000) : kDinv (F := Ideal) ei (ix1 d) = Cert.Gcn.dinv ei d := by
  -- the select, the comparison and the inverse square root act entry by entry, whatever the vectors are
  have h : ∀ (g zv zw : FVec Ideal S50000 .f32),
      select (cmpf (F := Ideal) (φ := .f32) .ogt g zv) (Host.rsqrt (F := Ideal) (φ := .f32) g) zw (ix1 d)
        = Scalar.select (Ideal.cmp .ogt (g (ix1 d)) (zv (ix1 d))) (Ideal.rsqrt (g (ix1 d))) (zw (ix1 d)) := fun _ _ _ => rfl
  have hz : broadcastInDim S50000 ![] bcast_S_S50000 (constant (F := Ideal) S_ .f32 0x00000000#32) (ix1 d) = 0 := Ideal.ofBits_zero_f32
  have hz' : broadcastInDim S50000 ![] bcast_S_S50000 (id (constant (F := Ideal) S_ .f32 0x00000000#32)) (ix1 d) = 0 := Ideal.ofBits_zero_f32
  unfold kDinv Cert.Gcn.dinv
  rw [h, hz, hz', kDeg_at]

theorem kDinvMat_at (n : Fin 50000) (k : Fin 128) : kDinvMat (F := Ideal) ei (ix2 n k) = Cert.Gcn.dinv ei n := by
  unfold kDinvMat
  rw [broadcastInDim_apply ![0, 1] bcast_S50000x1_S50000x128_0_1 _ (ix2 n k) (ix2 n (0 : Fin 1)) (fun a => by
    match a with
    | ⟨0, _⟩ => show n.val = if (50000 : Nat) = 1 then 0 else n.val; rw [if_neg (by decide)]
    | ⟨1, _⟩ => show (0 : Nat) = if (1 : Nat) = 1 then 0 else k.val; rw [if_pos rfl])]
  rw [shapeCast_a_a1_apply]
  exact kDinv_at ei n

theorem kXs_at (n : Fin 50000) (k : Fin 128) : kXs (F := Ideal) X ei (ix2 n k) = X (ix2 n k) * Cert.Gcn.dinv ei n := by
  unfold kXs
  rw [mulf_apply, kDinvMat_at]

/-- The aggregate at node d, column k: dinv(d) times the sum, over the edges into d, of the sources' scaled rows, plus the
    node's own scaled row. -/
theorem kAgg_at (d : Fin 50000) (k : Fin 128) :
    kAgg (F := Ideal) X ei (ix2 d k)
      = Cert.Gcn.dinv ei d * ((0 + ∑ e ∈ Cert.Gcn.into ei d, X (ix2 (Cert.Gcn.src ei e) k) * Cert.Gcn.dinv ei (Cert.Gcn.src ei e))
          + X (ix2 d k) * Cert.Gcn.dinv ei d) := by
  unfold kAgg
  rw [mulf_apply, addf_apply, kDinvMat_at, kXs_at]
  have h := RowScatter.rows_apply (N := 50000) (E := 800000) (C := 128) scatter_S50000x128_S800000x1_S800000x128_1_0_0_1_wf
    (broadcastInDim S50000x128 ![] bcast_S_S50000x128 (constant (F := Ideal) S_ .f32 0x00000000#32)) (dstCol (F := Ideal) ei)
    (Host.gather gather_S50000x128_S800000x1_S800000x128_1_0_n_n_0_1_1128 (kXs (F := Ideal) X ei) (srcCol (F := Ideal) ei)) d k
  rw [filter_dest] at h
  refine congrArg (Cert.Gcn.dinv ei d * ·) (congrArg₂ (· + ·) (h.trans ?_) rfl)
  refine congrArg₂ (· + ·) Ideal.ofBits_zero_f32 (Finset.sum_congr rfl fun e _ => ?_)
  have hg := Cert.Lib.EdgeGather.row_apply (N := 50000) (E := 800000) (C := 128) (by decide)
    gather_S50000x128_S800000x1_S800000x128_1_0_n_n_0_1_1128_wf (kXs (F := Ideal) X ei) (srcCol (F := Ideal) ei) e k
  rw [pos_srcCol] at hg
  exact hg.trans (kXs_at X ei _ k)

/-- Column k < 96 of the aggregate is the specification's aggregate of the first 96 columns of X. -/
theorem kAgg_spec (d : Fin 50000) (k : Fin 96) :
    kAgg (F := Ideal) X ei (ix2 d (⟨k.val, Nat.lt_of_lt_of_le k.isLt (by decide)⟩ : Fin 128))
      = Cert.Gcn.agg ei (fun n c => X (ix2 n (⟨c.val, Nat.lt_of_lt_of_le c.isLt (by decide)⟩ : Fin 128))) d k := by
  rw [kAgg_at]
  rfl

end Read

end Cert.KernHost1

end
-- ==== Proof.KernValue.lean ====
/-
  The idealized kernel's result array, entry by entry, is the specification's first arrangement of the arguments.

  The second region leaves in the result array, at (n, j), the read-out of row n of the aggregate it was given: relu of
  the row plus the extended gb, times the extended and transposed Wf, plus bf. The 32 extra columns meet zero rows of the
  extended Wf, so only the first 96 columns of the aggregate count (`sum_pad`), and there the extended gb and Wf are gb
  and Wf. The aggregate's first 96 columns are the specification's aggregate of the first 96 columns of the first region's
  result, which are the projected rows: the first region computes, block of 5000 rows by block, hidden = relu (z · W1aᵀ +
  one-hot · W1bᵀ + b1), features = hidden · W2ᵀ + b2, and features · (gW extended)ᵀ, whose column c < 96 is features · gW at
  row c.
-/
import proofs.«182204_j87729001988299_2_alg».proof.Proof.KernCover
import proofs.«182204_j87729001988299_2_alg».proof.Proof.KernHost0
import proofs.«182204_j87729001988299_2_alg».proof.Proof.KernHost1
import proofs.«182204_j87729001988299_2_alg».proof.Proof.GcnLaw

set_option maxRecDepth 16384

noncomputable section

open scoped BigOperators

namespace Cert.KernValue

open Idealize.ShloMosaic Idealize.ShloMosaic.TcCoe Idealize.ShloMosaic.ValueIdx Idealize.SL.Sem
open Cert.KernelIdeal Cert.KernelIdeal.Gen Cert.KernHost0 Cert.KernHost1 Cert.KernCover

/-! ## The two regions' array functions, over arrays described entry by entry -/

/-- The first region's array function, of arrays holding the re-laid parameters, is the projected rows on its first 96
    columns. -/
theorem X0_spec (a0 : S50000x128.Idx → EReal) (a1 : S50000x1.Idx → BitVec 32) (a2 : S128x128.Idx → EReal)
    (a3 : S10x128.Idx → EReal) (a4 : S1x128.Idx → EReal) (a5 : S128x96.Idx → EReal) (a6 : S1x96.Idx → EReal)
    (a7 : S96x128.Idx → EReal)
    (z : Cert.Gcn.Mat 50000 128) (y : Cert.Gcn.IVc 50000) (W1 : Cert.Gcn.Mat 128 138) (b1 : Cert.Gcn.Vc 128)
    (W2 : Cert.Gcn.Mat 96 128) (b2 : Cert.Gcn.Vc 96) (gW : Cert.Gcn.Mat 96 96)
    (h0 : a0 = z) (h1 : ∀ n : Fin 50000, a1 (ix2 n (0 : Fin 1)) = y (ix1 n))
    (h2 : ∀ q j : Fin 128, a2 (ix2 q j) = W1 (ix2 j (⟨q.val, Nat.lt_of_lt_of_le q.isLt (by decide)⟩ : Fin 138)))
    (h3 : ∀ (q : Fin 10) (j : Fin 128), a3 (ix2 q j) = W1 (ix2 j (⟨128 + q.val, by have := q.isLt; omega⟩ : Fin 138)))
    (h4 : ∀ j : Fin 128, a4 (ix2 (0 : Fin 1) j) = b1 (ix1 j))
    (h5 : ∀ (j : Fin 128) (k : Fin 96), a5 (ix2 j k) = W2 (ix2 k j))
    (h6 : ∀ k : Fin 96, a6 (ix2 (0 : Fin 1) k) = b2 (ix1 k))
    (h7 : ∀ k cc : Fin 96, a7 (ix2 k (⟨cc.val, Nat.lt_of_lt_of_le cc.isLt (by decide)⟩ : Fin 128)) = gW (ix2 cc k))
    (n : Fin 50000) (cc : Fin 96) :
    X0 a0 a1 a2 a3 a4 a5 a6 a7 (ix2 n (⟨cc.val, Nat.lt_of_lt_of_le cc.isLt (by decide)⟩ : Fin 128))
      = Cert.Gcn.proj (Cert.Gcn.feat (Cert.Gcn.hid z y W1 b1) W2 b2) gW n cc := by
  subst h0
  rw [X0_apply]
  unfold Cert.Gcn.proj Cert.Gcn.feat Cert.Gcn.hid Cert.Gcn.hot
  simp only [h1, h2, h3, h4, h5, h6, h7]

/-- The second region's array function, of an aggregate whose first 96 columns are A and of the extended read-out
    parameters, is the read-out of A: the 32 extra columns meet zero rows of the extended Wf. -/
theorem Y1_spec (a0 : S50000x128.Idx → EReal) (a1 : S1x128.Idx → EReal) (a2 : S128x256.Idx → EReal) (a3 : S1x256.Idx → EReal)
    (A : Fin 50000 → Fin 96 → EReal) (gb : Cert.Gcn.Vc 96) (Wf : Cert.Gcn.Mat 256 96) (bf : Cert.Gcn.Vc 256)
    (h0 : ∀ (n : Fin 50000) (k : Fin 96), a0 (ix2 n (⟨k.val, Nat.lt_of_lt_of_le k.isLt (by decide)⟩ : Fin 128)) = A n k)
    (h1 : ∀ k : Fin 96, a1 (ix2 (0 : Fin 1) (⟨k.val, Nat.lt_of_lt_of_le k.isLt (by decide)⟩ : Fin 128)) = gb (ix1 k))
    (h2 : ∀ (k : Fin 128) (j : Fin 256), a2 (ix2 k j) = if h : k.val < 96 then Wf (ix2 j (⟨k.val, h⟩ : Fin 96)) else 0)
    (h3 : ∀ j : Fin 256, a3 (ix2 (0 : Fin 1) j) = bf (ix1 j))
    (n : Fin 50000) (j : Fin 256) :
    Y1 a0 a1 a2 a3 (ix2 n j) = Cert.Gcn.out A gb Wf bf n j := by
  rw [Y1_apply]
  unfold Cert.Gcn.out
  rw [h3]
  refine congrArg₂ (· + ·) ?_ rfl
  refine (Cert.Gcn.sum_pad (fun k : Fin 128 => max (a0 (ix2 n k) + a1 (ix2 (0 : Fin 1) k)) 0) (fun k : Fin 128 => a2 (ix2 k j))
    (fun k hk => by show a2 (ix2 k j) = 0; rw [h2, dif_neg (by omega)])).trans ?_
  refine Finset.sum_congr rfl fun k _ => ?_
  show max (a0 (ix2 n (⟨k.val, Nat.lt_of_lt_of_le k.isLt (by decide)⟩ : Fin 128))
        + a1 (ix2 (0 : Fin 1) (⟨k.val, Nat.lt_of_lt_of_le k.isLt (by decide)⟩ : Fin 128))) 0
      * a2 (ix2 (⟨k.val, Nat.lt_of_lt_of_le k.isLt (by decide)⟩ : Fin 128) j) = _
  rw [h0, h1, h2, dif_pos (show (⟨k.val, Nat.lt_of_lt_of_le k.isLt (by decide)⟩ : Fin 128).val < 96 from k.isLt)]

variable (m : (ℓ : Loc nD τ sig) → Buf (Elt Ideal) ℓ) (ρ : Dev nD → PrngReg)

/-- The specification's projected rows of the arguments. -/
abbrev projOf (c : Dev nD) : Fin 50000 → Fin 96 → EReal :=
  Cert.Gcn.proj (Cert.Gcn.feat (Cert.Gcn.hid (m ((c : Thread nD τ).loc main_arg0)) (m ((c : Thread nD τ).loc main_arg1))
    (m ((c : Thread nD τ).loc main_arg3)) (m ((c : Thread nD τ).loc main_arg4)))
    (m ((c : Thread nD τ).loc main_arg5)) (m ((c : Thread nD τ).loc main_arg6))) (m ((c : Thread nD τ).loc main_arg7))

/-- The first region's result array. -/
theorem x_arr (c : Dev nD) :
    W4 m ρ c (Proc.devRef .tc main_v14)
      = X0 (V3 m ρ c main_arg0) (V3 m ρ c main_v13) (V3 m ρ c main_v2) (V3 m ρ c main_v5) (V3 m ρ c main_v6)
          (V3 m ρ c main_v8) (V3 m ρ c main_v9) (V3 m ρ c main_v12) :=
  (W4_arr m ρ c 8).trans (arr0 (V3 m ρ) c)

/-- Its column c < 96 at row n is the projected row's entry. -/
theorem x_at (c : Dev nD) (n : Fin 50000) (cc : Fin 96) :
    W4 m ρ c (Proc.devRef .tc main_v14) (ix2 n (⟨cc.val, Nat.lt_of_lt_of_le cc.isLt (by decide)⟩ : Fin 128)) = projOf m c n cc := by
  rw [x_arr]
  exact X0_spec _ _ _ _ _ _ _ _ _ _ _ _ _ _ _ (V3_arg0 m ρ c) (v13_at m ρ c) (v2_at m ρ c) (v5_at m ρ c) (v6_at m ρ c)
    (v8_at m ρ c) (v9_at m ρ c) (v12_at m ρ c) n cc

/-- The result array. -/
theorem out_arr (c : Dev nD) :
    W12 m ρ c (Proc.devRef .tc main_v51)
      = Y1 (V11 m ρ c main_v44) (V11 m ρ c main_v46) (V11 m ρ c main_v49) (V11 m ρ c main_v50) :=
  (W12_arr m ρ c 4).trans (arr1 (V11 m ρ) c)

/-- Row k < 96 of the extended, transposed Wf is column k of Wf; the rows from 96 on are zero. -/
theorem v49_at (c : Dev nD) (k : Fin 128) (j : Fin 256) :
    V11 m ρ c main_v49 (ix2 k j)
      = if h : k.val < 96 then m ((c : Thread nD τ).loc main_arg9) (ix2 j (⟨k.val, h⟩ : Fin 96)) else (0 : EReal) := by
  rw [V11_v49, W4_arg9, transpose_ix2_apply]
  by_cases h : k.val < 96
  · rw [dif_pos h]
    refine pad_apply_of_inside _ _ _ _ _ _ _ _ (ix2 j (⟨k.val, h⟩ : Fin 96)) fun a => ?_
    match a with
    | ⟨0, _⟩ => show j.val = 0 + j.val * (0 + 1); omega
    | ⟨1, _⟩ => show k.val = 0 + k.val * (0 + 1); omega
  · rw [dif_neg h]
    refine (pad_apply_of_not_inside _ _ _ _ _ _ _ (ix2 j k) (1 : Fin 2) ?_).trans ?_
    · show ¬ (0 ≤ k.val ∧ (k.val - 0) % (0 + 1) = 0 ∧ (k.val - 0) / (0 + 1) < 96)
      omega
    · show (((0#32 : BitVec 32).toInt : ℝ) : EReal) = (0 : EReal)
      simp

/-- Entry k < 96 of the extended gb, as a one-row matrix, is gb at k. -/
theorem v46_at (c : Dev nD) (k : Fin 96) :
    V11 m ρ c main_v46 (ix2 (0 : Fin 1) (⟨k.val, Nat.lt_of_lt_of_le k.isLt (by decide)⟩ : Fin 128))
      = m ((c : Thread nD τ).loc main_arg8) (ix1 k) := by
  rw [V11_v46, W4_arg8, shapeCast_a_1a_apply]
  refine pad_apply_of_inside _ _ _ _ _ _ _ _ (ix1 k) fun a => ?_
  match a with
  | ⟨0, _⟩ => show k.val = 0 + k.val * (0 + 1); omega

theorem v50_at (c : Dev nD) (j : Fin 256) :
    V11 m ρ c main_v50 (ix2 (0 : Fin 1) j) = m ((c : Thread nD τ).loc main_arg10) (ix1 j) := by
  rw [V11_v50, W4_arg10]
  exact shapeCast_a_1a_apply _ _ 0 j

/-- Column k < 96 of the aggregate the second region reads. -/
theorem v44_at (c : Dev nD) (n : Fin 50000) (k : Fin 96) :
    V11 m ρ c main_v44 (ix2 n (⟨k.val, Nat.lt_of_lt_of_le k.isLt (by decide)⟩ : Fin 128))
      = Cert.Gcn.agg (m ((c : Thread nD τ).loc main_arg2)) (projOf m c) n k := by
  rw [V11_v44, W4_arg2, kAgg_spec]
  congr 1
  funext n' c'
  exact x_at m ρ c n' c'

/-- THE KERNEL'S VALUE: entry (n, j) of the result array. -/
theorem value (c : Dev nD) (n : Fin 50000) (j : Fin 256) :
    W12 m ρ c (Proc.devRef .tc main_v51) (ix2 n j)
      = Cert.Gcn.out (Cert.Gcn.agg (m ((c : Thread nD τ).loc main_arg2)) (projOf m c))
          (m ((c : Thread nD τ).loc main_arg8)) (m ((c : Thread nD τ).loc main_arg9)) (m ((c : Thread nD τ).loc main_arg10)) n j := by
  rw [out_arr]
  exact Y1_spec _ _ _ _ _ _ _ _ (v44_at m ρ c) (v46_at m ρ c) (v49_at m ρ c) (v50_at m ρ c) n j

end Cert.KernValue

end
-- ==== Proof.RefRun.lean ====
/-
  The reference program's run, read back as a chain of named stages.

  The program is a straight line of 89 tensor operations: a two-layer perceptron on the node features joined with the
  one-hot code of the node's class, one graph convolution with symmetric degree normalisation over the edge list with a
  loop n → n appended for every node, and a linear read-out. Its operations are listed in order (`ops`), the program is
  that list run in sequence (`main_eq`), and every execution ends with the result buffer holding the composition of the
  operations applied to the arguments' contents at launch (`run`), the arguments unchanged.

  The composition is stated through stages named after the mathematics, each one operation or a few applied to earlier
  stages, for any float values F:
    stHot   the one-hot code of each node's class                       50000 × 10
    stCat   the features joined with the one-hot code                   50000 × 138
    stHid   relu (stCat · W1ᵀ + b1)                                     50000 × 128
    stFeat  stHid · W2ᵀ + b2                                            50000 × 96
    stProj  stFeat · gWᵀ                                                50000 × 96
    stSrcJ, stDstJ   the edges' sources / destinations followed by 0 … 49999      850000
    stWrap  an index vector with 50000 added to its negative entries    850000
    stDeg   the number of joined edges into each node, counted in 1.0s  50000
    stDinv  1/√stDeg where stDeg is positive, 0 elsewhere               50000
    stNorm  stDinv at the wrapped source times stDinv at the wrapped destination, per joined edge   850000
    stMsg   stProj's row at the wrapped source scaled by stNorm, per joined edge  850000 × 96
    stAgg   the messages summed into their destinations' rows           50000 × 96
    stOut   relu (stAgg + gb) · Wfᵀ + bf                                50000 × 256
-/
import proofs.«182204_j87729001988299_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 89 operations, in order; the operations of a function it calls stand where the call is. -/
abbrev ops : List (HloOp τ sig (Elt F)) :=
  [ TRef.unary (TRef.of (T := ⟨S50000, .i32⟩) main_arg1) (TRef.of (T := ⟨S50000x1, .i32⟩) main_call0_v0) (broadcastInDim S50000x1 ![0] bcast_S50000_S50000x1_0),
    TRef.nullary (TRef.of (T := ⟨S1x10, .i32⟩) main_call0_v1) (iotaInDim S1x10 32 1),
    TRef.unary (TRef.of (T := ⟨S50000x1, .i32⟩) main_call0_v0) (TRef.of (T := ⟨S50000x10, .i32⟩) main_call0_v2) (broadcastInDim S50000x10 ![0, 1] bcast_S50000x1_S50000x10_0_1),
    TRef.unary (TRef.of (T := ⟨S1x10, .i32⟩) main_call0_v1) (TRef.of (T := ⟨S50000x10, .i32⟩) main_call0_v3) (broadcastInDim S50000x10 ![0, 1] bcast_S1x10_S50000x10_0_1),
    TRef.binary (TRef.of (T := ⟨S50000x10, .i32⟩) main_call0_v2) (TRef.of (T := ⟨S50000x10, .i32⟩) main_call0_v3) (TRef.of (T := ⟨S50000x10, .i1⟩) main_call0_v4) (cmpi .eq),
    TRef.unary (TRef.of (T := ⟨S50000x10, .i1⟩) main_call0_v4) (TRef.of (T := ⟨S50000x10, .f32⟩) main_v0) (uitofp .f32),
    binary main_arg0 main_v0 main_v1 ((fun a b => concatenate S50000x138 1 [⟨S50000x128, a⟩, ⟨S50000x10, b⟩] concatenates_S50000x128_S50000x10_S50000x138_d1) : (⟨S50000x128, .f32⟩ : BufTy).Contents (Elt F) → (⟨S50000x10, .f32⟩ : BufTy).Contents (Elt F) → (⟨S50000x138, .f32⟩ : BufTy).Contents (Elt F)),
    unary main_arg3 main_v2 ((transpose S138x128 [1, 0] · transposes_S128x138_S138x128_1_0) : (⟨S128x138, .f32⟩ : BufTy).Contents (Elt F) → (⟨S138x128, .f32⟩ : BufTy).Contents (Elt F)),
    binary main_v1 main_v2 main_v3 ((fun l r => Host.dotGeneral dot_S50000x138_S138x128_S50000x128_1_0_0_1_n_n none l r) : (⟨S50000x138, .f32⟩ : BufTy).Contents (Elt F) → (⟨S138x128, .f32⟩ : BufTy).Contents (Elt F) → (⟨S50000x128, .f32⟩ : BufTy).Contents (Elt F)),
    unary main_arg4 main_v4 (broadcastInDim S1x128 ![1] bcast_S128_S1x128_1 : (⟨S128, .f32⟩ : BufTy).Contents (Elt F) → (⟨S1x128, .f32⟩ : BufTy).Contents (Elt F)),
    unary main_v4 main_v5 (broadcastInDim S50000x128 ![0, 1] bcast_S1x128_S50000x128_0_1 : (⟨S1x128, .f32⟩ : BufTy).Contents (Elt F) → (⟨S50000x128, .f32⟩ : BufTy).Contents (Elt F)),
    binary main_v3 main_v5 main_v6 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v6) (TRef.of (T := ⟨S50000x128, .f32⟩) main_call1_v0) (TRef.of (T := ⟨S50000x128, .f32⟩) main_v7) maximumf,
    unary main_arg5 main_v8 ((transpose S128x96 [1, 0] · transposes_S96x128_S128x96_1_0) : (⟨S96x128, .f32⟩ : BufTy).Contents (Elt F) → (⟨S128x96, .f32⟩ : BufTy).Contents (Elt F)),
    binary main_v7 main_v8 main_v9 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    unary main_arg6 main_v10 (broadcastInDim S1x96 ![1] bcast_S96_S1x96_1 : (⟨S96, .f32⟩ : BufTy).Contents (Elt F) → (⟨S1x96, .f32⟩ : BufTy).Contents (Elt F)),
    unary main_v10 main_v11 (broadcastInDim S50000x96 ![0, 1] bcast_S1x96_S50000x96_0_1 : (⟨S1x96, .f32⟩ : BufTy).Contents (Elt F) → (⟨S50000x96, .f32⟩ : BufTy).Contents (Elt F)),
    binary main_v9 main_v11 main_v12 (addf : (⟨S50000x96, .f32⟩ : BufTy).Contents (Elt F) → (⟨S50000x96, .f32⟩ : BufTy).Contents (Elt F) → (⟨S50000x96, .f32⟩ : BufTy).Contents (Elt F)),
    unary main_arg7 main_v13 ((transpose S96x96 [1, 0] · transposes_S96x96_S96x96_1_0) : (⟨S96x96, .f32⟩ : BufTy).Contents (Elt F) → (⟨S96x96, .f32⟩ : BufTy).Contents (Elt F)),
    binary main_v12 main_v13 main_v14 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    nullary main_v15 (iotaInDim S50000 32 0),
    unary main_arg2 main_v16 ((extractStridedSlice S1x800000 ![0, 0] · slices_S2x800000_S1x800000_0_0) : (⟨S2x800000, .i32⟩ : BufTy).Contents (Elt F) → (⟨S1x800000, .i32⟩ : BufTy).Contents (Elt F)),
    reshape main_v16 main_v17 rfl shapeCasts_S1x800000_S800000,
    binary main_v17 main_v15 main_v18 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg2 main_v19 ((extractStridedSlice S1x800000 ![1, 0] · slices_S2x800000_S1x800000_1_0) : (⟨S2x800000, .i32⟩ : BufTy).Contents (Elt F) → (⟨S1x800000, .i32⟩ : BufTy).Contents (Elt F)),
    reshape main_v19 main_v20 rfl shapeCasts_S1x800000_S800000,
    binary main_v20 main_v15 main_v21 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v22 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v23 (broadcastInDim S50000 ![] bcast_S_S50000 : (⟨S_, .f32⟩ : BufTy).Contents (Elt F) → (⟨S50000, .f32⟩ : BufTy).Contents (Elt F)),
    unary main_v21 main_v24 (broadcastInDim S850000x1 ![0] bcast_S850000_S850000x1_0 : (⟨S850000, .i32⟩ : BufTy).Contents (Elt F) → (⟨S850000x1, .i32⟩ : BufTy).Contents (Elt F)),
    ternary main_v23 main_v24 main_v22 main_v25 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v26 (broadcastInDim S50000 ![] bcast_S_S50000 : (⟨S_, .f32⟩ : BufTy).Contents (Elt F) → (⟨S50000, .f32⟩ : BufTy).Contents (Elt F)),
    binary main_v25 main_v26 main_v27 (cmpf .ogt : (⟨S50000, .f32⟩ : BufTy).Contents (Elt F) → (⟨S50000, .f32⟩ : BufTy).Contents (Elt F) → (⟨S50000, .i1⟩ : BufTy).Contents (Elt F)),
    unary main_v25 main_v28 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v27) (TRef.of (T := ⟨S50000, .f32⟩) main_v28) (TRef.of (T := ⟨S50000, .f32⟩) main_call2_v1) (TRef.of (T := ⟨S50000, .f32⟩) main_v29) select,
    nullary main_c (constantI S_ 32 0#32),
    unary main_c main_v30 (broadcastInDim S850000 ![] bcast_S_S850000 : (⟨S_, .i32⟩ : BufTy).Contents (Elt F) → (⟨S850000, .i32⟩ : BufTy).Contents (Elt F)),
    binary main_v18 main_v30 main_v31 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v32 (broadcastInDim S850000 ![] bcast_S_S850000 : (⟨S_, .i32⟩ : BufTy).Contents (Elt F) → (⟨S850000, .i32⟩ : BufTy).Contents (Elt F)),
    binary main_v18 main_v32 main_v33 (addi : (⟨S850000, .i32⟩ : BufTy).Contents (Elt F) → (⟨S850000, .i32⟩ : BufTy).Contents (Elt F) → (⟨S850000, .i32⟩ : BufTy).Contents (Elt F)),
    ternary main_v31 main_v33 main_v18 main_v34 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v34 main_v35 (broadcastInDim S850000x1 ![0] bcast_S850000_S850000x1_0 : (⟨S850000, .i32⟩ : BufTy).Contents (Elt F) → (⟨S850000x1, .i32⟩ : BufTy).Contents (Elt F)),
    binary main_v29 main_v35 main_v36 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v37 (broadcastInDim S850000 ![] bcast_S_S850000 : (⟨S_, .i32⟩ : BufTy).Contents (Elt F) → (⟨S850000, .i32⟩ : BufTy).Contents (Elt F)),
    binary main_v21 main_v37 main_v38 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v39 (broadcastInDim S850000 ![] bcast_S_S850000 : (⟨S_, .i32⟩ : BufTy).Contents (Elt F) → (⟨S850000, .i32⟩ : BufTy).Contents (Elt F)),
    binary main_v21 main_v39 main_v40 (addi : (⟨S850000, .i32⟩ : BufTy).Contents (Elt F) → (⟨S850000, .i32⟩ : BufTy).Contents (Elt F) → (⟨S850000, .i32⟩ : BufTy).Contents (Elt F)),
    ternary main_v38 main_v40 main_v21 main_v41 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v41 main_v42 (broadcastInDim S850000x1 ![0] bcast_S850000_S850000x1_0 : (⟨S850000, .i32⟩ : BufTy).Contents (Elt F) → (⟨S850000x1, .i32⟩ : BufTy).Contents (Elt F)),
    binary main_v29 main_v42 main_v43 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v36 main_v43 main_v44 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v45 (broadcastInDim S850000 ![] bcast_S_S850000 : (⟨S_, .i32⟩ : BufTy).Contents (Elt F) → (⟨S850000, .i32⟩ : BufTy).Contents (Elt F)),
    binary main_v18 main_v45 main_v46 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v47 (broadcastInDim S850000 ![] bcast_S_S850000 : (⟨S_, .i32⟩ : BufTy).Contents (Elt F) → (⟨S850000, .i32⟩ : BufTy).Contents (Elt F)),
    binary main_v18 main_v47 main_v48 (addi : (⟨S850000, .i32⟩ : BufTy).Contents (Elt F) → (⟨S850000, .i32⟩ : BufTy).Contents (Elt F) → (⟨S850000, .i32⟩ : BufTy).Contents (Elt F)),
    ternary main_v46 main_v48 main_v18 main_v49 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v49 main_v50 (broadcastInDim S850000x1 ![0] bcast_S850000_S850000x1_0 : (⟨S850000, .i32⟩ : BufTy).Contents (Elt F) → (⟨S850000x1, .i32⟩ : BufTy).Contents (Elt F)),
    binary main_v14 main_v50 main_v51 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v44 main_v52 (broadcastInDim S850000x1 ![0] bcast_S850000_S850000x1_0 : (⟨S850000, .f32⟩ : BufTy).Contents (Elt F) → (⟨S850000x1, .f32⟩ : BufTy).Contents (Elt F)),
    unary main_v52 main_v53 (broadcastInDim S850000x96 ![0, 1] bcast_S850000x1_S850000x96_0_1 : (⟨S850000x1, .f32⟩ : BufTy).Contents (Elt F) → (⟨S850000x96, .f32⟩ : BufTy).Contents (Elt F)),
    binary main_v51 main_v53 main_v54 (mulf : (⟨S850000x96, .f32⟩ : BufTy).Contents (Elt F) → (⟨S850000x96, .f32⟩ : BufTy).Contents (Elt F) → (⟨S850000x96, .f32⟩ : BufTy).Contents (Elt F)),
    nullary main_cst_8 (constant S_ .f32 0x00000000#32),
    unary main_cst_8 main_v55 (broadcastInDim S50000x96 ![] bcast_S_S50000x96 : (⟨S_, .f32⟩ : BufTy).Contents (Elt F) → (⟨S50000x96, .f32⟩ : BufTy).Contents (Elt F)),
    unary main_v21 main_v56 (broadcastInDim S850000x1 ![0] bcast_S850000_S850000x1_0 : (⟨S850000, .i32⟩ : BufTy).Contents (Elt F) → (⟨S850000x1, .i32⟩ : BufTy).Contents (Elt F)),
    ternary main_v55 main_v56 main_v54 main_v57 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_arg8 main_v58 (broadcastInDim S1x96 ![1] bcast_S96_S1x96_1 : (⟨S96, .f32⟩ : BufTy).Contents (Elt F) → (⟨S1x96, .f32⟩ : BufTy).Contents (Elt F)),
    unary main_v58 main_v59 (broadcastInDim S50000x96 ![0, 1] bcast_S1x96_S50000x96_0_1 : (⟨S1x96, .f32⟩ : BufTy).Contents (Elt F) → (⟨S50000x96, .f32⟩ : BufTy).Contents (Elt F)),
    binary main_v57 main_v59 main_v60 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x96, .f32⟩) main_call3_v0) (broadcastInDim S50000x96 ![] bcast_S_S50000x96),
    TRef.binary (TRef.of (T := ⟨S50000x96, .f32⟩) main_v60) (TRef.of (T := ⟨S50000x96, .f32⟩) main_call3_v0) (TRef.of (T := ⟨S50000x96, .f32⟩) main_v61) maximumf,
    unary main_arg9 main_v62 ((transpose S96x256 [1, 0] · transposes_S256x96_S96x256_1_0) : (⟨S256x96, .f32⟩ : BufTy).Contents (Elt F) → (⟨S96x256, .f32⟩ : BufTy).Contents (Elt F)),
    binary main_v61 main_v62 main_v63 ((fun l r => Host.dotGeneral dot_S50000x96_S96x256_S50000x256_1_0_0_1_n_n none l r) : (⟨S50000x96, .f32⟩ : BufTy).Contents (Elt F) → (⟨S96x256, .f32⟩ : BufTy).Contents (Elt F) → (⟨S50000x256, .f32⟩ : BufTy).Contents (Elt F)),
    unary main_arg10 main_v64 (broadcastInDim S1x256 ![1] bcast_S256_S1x256_1 : (⟨S256, .f32⟩ : BufTy).Contents (Elt F) → (⟨S1x256, .f32⟩ : BufTy).Contents (Elt F)),
    unary main_v64 main_v65 (broadcastInDim S50000x256 ![0, 1] bcast_S1x256_S50000x256_0_1 : (⟨S1x256, .f32⟩ : BufTy).Contents (Elt F) → (⟨S50000x256, .f32⟩ : BufTy).Contents (Elt F)),
    binary main_v63 main_v65 main_v66 (addf : (⟨S50000x256, .f32⟩ : BufTy).Contents (Elt F) → (⟨S50000x256, .f32⟩ : BufTy).Contents (Elt F) → (⟨S50000x256, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., unary_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

/-! ## The stages -/

/-- The one-hot code of each node's class: the class repeated along ten columns, compared with the column's number. -/
def stHot (y : (⟨S50000, .i32⟩ : BufTy).Contents (Elt F)) : (⟨S50000x10, .f32⟩ : BufTy).Contents (Elt F) :=
  uitofp .f32 (cmpi .eq (broadcastInDim S50000x10 ![0, 1] bcast_S50000x1_S50000x10_0_1 (broadcastInDim S50000x1 ![0] bcast_S50000_S50000x1_0 y)) (broadcastInDim S50000x10 ![0, 1] bcast_S1x10_S50000x10_0_1 (iotaInDim S1x10 32 1)))

/-- Each node's features followed by the one-hot code of its class. -/
def stCat (z : (⟨S50000x128, .f32⟩ : BufTy).Contents (Elt F)) (y : (⟨S50000, .i32⟩ : BufTy).Contents (Elt F)) : (⟨S50000x138, .f32⟩ : BufTy).Contents (Elt F) :=
  concatenate S50000x138 1 [⟨S50000x128, z⟩, ⟨S50000x10, stHot (F := F) y⟩] concatenates_S50000x128_S50000x10_S50000x138_d1

/-- The hidden layer: relu (joined row · W1ᵀ + b1). -/
def stHid (z : (⟨S50000x128, .f32⟩ : BufTy).Contents (Elt F)) (y : (⟨S50000, .i32⟩ : BufTy).Contents (Elt F)) (W1 : (⟨S128x138, .f32⟩ : BufTy).Contents (Elt F)) (b1 : (⟨S128, .f32⟩ : BufTy).Contents (Elt F)) : (⟨S50000x128, .f32⟩ : BufTy).Contents (Elt F) :=
  maximumf (addf (Host.dotGeneral dot_S50000x138_S138x128_S50000x128_1_0_0_1_n_n none (stCat z y) (transpose S138x128 [1, 0] W1 transposes_S128x138_S138x128_1_0)) (broadcastInDim S50000x128 ![0, 1] bcast_S1x128_S50000x128_0_1 (broadcastInDim S1x128 ![1] bcast_S128_S1x128_1 b1))) (broadcastInDim S50000x128 ![] bcast_S_S50000x128 (constant S_ .f32 0x00000000#32))

/-- The feature layer: hidden · W2ᵀ + b2. -/
def stFeat (z : (⟨S50000x128, .f32⟩ : BufTy).Contents (Elt F)) (y : (⟨S50000, .i32⟩ : BufTy).Contents (Elt F)) (W1 : (⟨S128x138, .f32⟩ : BufTy).Contents (Elt F)) (b1 : (⟨S128, .f32⟩ : BufTy).Contents (Elt F)) (W2 : (⟨S96x128, .f32⟩ : BufTy).Contents (Elt F)) (b2 : (⟨S96, .f32⟩ : BufTy).Contents (Elt F)) : (⟨S50000x96, .f32⟩ : BufTy).Contents (Elt F) :=
  addf (Host.dotGeneral dot_S50000x128_S128x96_S50000x96_1_0_0_1_n_n none (stHid z y W1 b1) (transpose S128x96 [1, 0] W2 transposes_S96x128_S128x96_1_0)) (broadcastInDim S50000x96 ![0, 1] bcast_S1x96_S50000x96_0_1 (broadcastInDim S1x96 ![1] bcast_S96_S1x96_1 b2))

/-- The convolution's linear part: feature · gWᵀ. -/
def stProj (z : (⟨S50000x128, .f32⟩ : BufTy).Contents (Elt F)) (y : (⟨S50000, .i32⟩ : BufTy).Contents (Elt F)) (W1 : (⟨S128x138, .f32⟩ : BufTy).Contents (Elt F)) (b1 : (⟨S128, .f32⟩ : BufTy).Contents (Elt F)) (W2 : (⟨S96x128, .f32⟩ : BufTy).Contents (Elt F)) (b2 : (⟨S96, .f32⟩ : BufTy).Contents (Elt F)) (gW : (⟨S96x96, .f32⟩ : BufTy).Contents (Elt F)) : (⟨S50000x96, .f32⟩ : BufTy).Contents (Elt F) :=
  Host.dotGeneral dot_S50000x96_S96x96_S50000x96_1_0_0_1_n_n none (stFeat z y W1 b1 W2 b2) (transpose S96x96 [1, 0] gW transposes_S96x96_S96x96_1_0)

/-- The edges' sources followed by the loops' sources 0 … 49999. -/
def stSrcJ (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edges' destinations followed by the loops' destinations 0 … 49999. -/
def stDstJ (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- An index vector with 50000 added to each negative entry. -/
def stWrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- Each node's degree over the joined list: 1.0 added at its destination for every joined edge, from 0. -/
def stDeg (ei : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (stDstJ (F := F) ei)) (broadcastInDim S850000 ![] bcast_S_S850000 (constant S_ .f32 0x3F800000#32))

/-- 1/√degree where the degree is positive, 0 elsewhere. -/
def stDinv (ei : (⟨S2x800000, .i32⟩ : BufTy).Contents (Elt F)) : (⟨S50000, .f32⟩ : BufTy).Contents (Elt F) :=
  select (cmpf (F := F) .ogt (stDeg ei) (broadcastInDim S50000 ![] bcast_S_S50000 (constant S_ .f32 0x00000000#32))) (Host.rsqrt (stDeg ei)) (broadcastInDim S50000 ![] bcast_S_S50000 (constant S_ .f32 0x00000000#32))

/-- Per joined edge: the normalising factor at its wrapped source times the factor at its wrapped destination. -/
def stNorm (ei : (⟨S2x800000, .i32⟩ : BufTy).Contents (Elt F)) : (⟨S850000, .f32⟩ : BufTy).Contents (Elt F) :=
  mulf (Host.gather gather_S50000_S850000x1_S850000_n_0_n_n_0_1_1 (stDinv (F := F) ei) (broadcastInDim S850000x1 ![0] bcast_S850000_S850000x1_0 (stWrap (F := F) (stSrcJ (F := F) ei)))) (Host.gather gather_S50000_S850000x1_S850000_n_0_n_n_0_1_1 (stDinv (F := F) ei) (broadcastInDim S850000x1 ![0] bcast_S850000_S850000x1_0 (stWrap (F := F) (stDstJ (F := F) ei))))

/-- Per joined edge: the projected row of its wrapped source, every column scaled by the edge's normalising factor. -/
def stMsg (z : (⟨S50000x128, .f32⟩ : BufTy).Contents (Elt F)) (y : (⟨S50000, .i32⟩ : BufTy).Contents (Elt F)) (W1 : (⟨S128x138, .f32⟩ : BufTy).Contents (Elt F)) (b1 : (⟨S128, .f32⟩ : BufTy).Contents (Elt F)) (W2 : (⟨S96x128, .f32⟩ : BufTy).Contents (Elt F)) (b2 : (⟨S96, .f32⟩ : BufTy).Contents (Elt F)) (gW : (⟨S96x96, .f32⟩ : BufTy).Contents (Elt F)) (ei : (⟨S2x800000, .i32⟩ : BufTy).Contents (Elt F)) : (⟨S850000x96, .f32⟩ : BufTy).Contents (Elt F) :=
  mulf (Host.gather gather_S50000x96_S850000x1_S850000x96_1_0_n_n_0_1_196 (stProj z y W1 b1 W2 b2 gW) (broadcastInDim S850000x1 ![0] bcast_S850000_S850000x1_0 (stWrap (F := F) (stSrcJ (F := F) ei)))) (broadcastInDim S850000x96 ![0, 1] bcast_S850000x1_S850000x96_0_1 (broadcastInDim S850000x1 ![0] bcast_S850000_S850000x1_0 (stNorm (F := F) ei)))

/-- The aggregate: every joined edge's message added into its destination's row, from 0. -/
def stAgg (z : (⟨S50000x128, .f32⟩ : BufTy).Contents (Elt F)) (y : (⟨S50000, .i32⟩ : BufTy).Contents (Elt F)) (W1 : (⟨S128x138, .f32⟩ : BufTy).Contents (Elt F)) (b1 : (⟨S128, .f32⟩ : BufTy).Contents (Elt F)) (W2 : (⟨S96x128, .f32⟩ : BufTy).Contents (Elt F)) (b2 : (⟨S96, .f32⟩ : BufTy).Contents (Elt F)) (gW : (⟨S96x96, .f32⟩ : BufTy).Contents (Elt F)) (ei : (⟨S2x800000, .i32⟩ : BufTy).Contents (Elt F)) : (⟨S50000x96, .f32⟩ : BufTy).Contents (Elt F) :=
  Host.scatterAdd scatter_S50000x96_S850000x1_S850000x96_1_0_0_1 (broadcastInDim S50000x96 ![] bcast_S_S50000x96 (constant S_ .f32 0x00000000#32)) (broadcastInDim S850000x1 ![0] bcast_S850000_S850000x1_0 (stDstJ (F := F) ei)) (stMsg z y W1 b1 W2 b2 gW ei)

/-- The result: relu (aggregate + gb) · Wfᵀ + bf. -/
def stOut (z : (⟨S50000x128, .f32⟩ : BufTy).Contents (Elt F)) (y : (⟨S50000, .i32⟩ : BufTy).Contents (Elt F)) (ei : (⟨S2x800000, .i32⟩ : BufTy).Contents (Elt F)) (W1 : (⟨S128x138, .f32⟩ : BufTy).Contents (Elt F)) (b1 : (⟨S128, .f32⟩ : BufTy).Contents (Elt F)) (W2 : (⟨S96x128, .f32⟩ : BufTy).Contents (Elt F)) (b2 : (⟨S96, .f32⟩ : BufTy).Contents (Elt F)) (gW : (⟨S96x96, .f32⟩ : BufTy).Contents (Elt F)) (gb : (⟨S96, .f32⟩ : BufTy).Contents (Elt F)) (Wf : (⟨S256x96, .f32⟩ : BufTy).Contents (Elt F)) (bf : (⟨S256, .f32⟩ : BufTy).Contents (Elt F)) : (⟨S50000x256, .f32⟩ : BufTy).Contents (Elt F) :=
  addf (Host.dotGeneral dot_S50000x96_S96x256_S50000x256_1_0_0_1_n_n none (maximumf (addf (stAgg z y W1 b1 W2 b2 gW ei) (broadcastInDim S50000x96 ![0, 1] bcast_S1x96_S50000x96_0_1 (broadcastInDim S1x96 ![1] bcast_S96_S1x96_1 gb))) (broadcastInDim S50000x96 ![] bcast_S_S50000x96 (constant S_ .f32 0x00000000#32))) (transpose S96x256 [1, 0] Wf transposes_S256x96_S96x256_1_0)) (broadcastInDim S50000x256 ![0, 1] bcast_S1x256_S50000x256_0_1 (broadcastInDim S1x256 ![1] bcast_S256_S1x256_1 bf))

/-! ## The run -/

set_option maxRecDepth 8192 in
set_option maxHeartbeats 35600000 in
/-- On every device, for any float values, from any memory with zero counters: every weakly fair execution of the
    program terminates with the result buffer at `stOut` of the arguments' contents at launch, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = stOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v66).trans (by
        after_results_simp
        unfold stOut stAgg stMsg stNorm stDinv stDeg stWrap stDstJ stSrcJ stProj stFeat stHid stCat stHot
        rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.RefRun

end
-- ==== Proof.RefValue.lean ====
/-
  The reference program's result read entry by entry over the extended reals.

  Each stage of the program's run is read at an index and found to be, term for term, the corresponding definition of the
  specification's second arrangement: the one-hot code (`hot`), the joined row (`catz`), the hidden layer as one sum over
  the 138 joined columns (`hidJ`), the feature layer (`feat`), the convolution's linear part (`proj`), the edge list with
  the 50000 loops appended (`joined`), the wrapped index (`wrap`), the degree counted over the joined list (`degJ`), its
  inverse square root (`dinvJ`), the aggregate with both normalising factors in every summand (`aggJ`) and the read-out
  (`out`). No algebra is involved: a layout operation read at an index is its operand at one index, a product of matrices
  is the sum over the contracted coordinate, a gather through a column of indices reads the row the clamped index names,
  and an accumulating scatter from zero is 0 plus the sum over the updates sent to the entry.
-/
import proofs.«182204_j87729001988299_2_alg».proof.Proof.RefRun
import proofs.«182204_j87729001988299_2_alg».proof.Proof.GcnSpec
import proofs.«182204_j87729001988299_2_alg».proof.Proof.LibPlainDot
import proofs.«182204_j87729001988299_2_alg».proof.Proof.LibRowScatter
import proofs.«182204_j87729001988299_2_alg».proof.Proof.LibEdgeGather
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

open scoped BigOperators

namespace Cert.RefValue

open Cert.ReferenceIdeal Cert.ReferenceIdeal.Gen Cert.RefRun Idealize.ShloMosaic Idealize.ShloMosaic.ValueIdx

/-! ## Layout operations read at an index -/

section Layout
variable {α : Type}

/-- A vector placed as a column reads, at (e, 0), the vector at e. -/
theorem column_apply {n : ℕ} (h : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] h v (ix2 e u) = v (ix1 e) := by
  refine broadcastInDim_apply ![0] h v (ix2 e u) (ix1 e) fun a => ?_
  match a with
  | ⟨0, _⟩ =>
    show e.val = if n = 1 then 0 else e.val
    split
    · have := e.isLt; omega
    · rfl

/-- A column repeated across c columns reads, at (e, k), the column at (e, 0). -/
theorem column_across_apply {n c : ℕ} (h : (⟨2, ![n, 1]⟩ : Shape).BroadcastsInDim ⟨2, ![n, c]⟩ ![0, 1])
    (v : (⟨2, ![n, 1]⟩ : Shape).Idx → α) (e : Fin n) (k : Fin c) :
    broadcastInDim ⟨2, ![n, c]⟩ ![0, 1] h v (ix2 e k) = v (ix2 e (0 : Fin 1)) := by
  refine broadcastInDim_apply ![0, 1] h v (ix2 e k) (ix2 e (0 : Fin 1)) fun a => ?_
  match a with
  | ⟨0, _⟩ =>
    show e.val = if n = 1 then 0 else e.val
    split
    · have := e.isLt; omega
    · rfl
  | ⟨1, _⟩ =>
    show (0 : ℕ) = if (1 : ℕ) = 1 then 0 else k.val
    rw [if_pos rfl]

/-- A vector placed as the one row of a matrix and that row repeated down m rows reads, at (r, c), the vector at c. -/
theorem row_down_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → α) (r : Fin m) (c : Fin n) :
    broadcastInDim ⟨2, ![m, n]⟩ ![0, 1] h2 (broadcastInDim ⟨2, ![1, n]⟩ ![1] h1 v) (ix2 r c) = v (ix1 c) := by
  refine (broadcastInDim_oneRow_apply h2 _ r c).trans ?_
  refine broadcastInDim_apply ![1] h1 v (ix2 (0 : Fin 1) c) (ix1 c) fun a => ?_
  match a with
  | ⟨0, _⟩ =>
    show c.val = if n = 1 then 0 else c.val
    split
    · have := c.isLt; omega
    · rfl

end Layout

/-- The zero constant repeated over a shape reads 0 everywhere. -/
theorem zero_splat_apply {t : Shape} (h : S_.BroadcastsInDim t ![]) (j : t.Idx) :
    broadcastInDim t ![] h (constant (F := Ideal) S_ .f32 0x00000000#32) j = 0 :=
  (broadcastInDim_scalar_apply h _ j).trans Ideal.ofBits_zero_f32

/-! ## The perceptron -/

/-- The one-hot stage is the one-hot code. -/
theorem hot_apply (y : (⟨S50000, .i32⟩ : BufTy).Contents (Elt Ideal)) (n : Fin 50000) (k : Fin 10) :
    stHot (F := Ideal) y (ix2 n k) = Cert.Gcn.hot y n k := by
  have hy : broadcastInDim S50000x10 ![0, 1] bcast_S50000x1_S50000x10_0_1
      (broadcastInDim S50000x1 ![0] bcast_S50000_S50000x1_0 y) (ix2 n k) = y (ix1 n) :=
    (column_across_apply bcast_S50000x1_S50000x10_0_1 _ n k).trans (column_apply bcast_S50000_S50000x1_0 y n 0)
  have hk : broadcastInDim S50000x10 ![0, 1] bcast_S1x10_S50000x10_0_1 (iotaInDim S1x10 32 1) (ix2 n k)
      = BitVec.ofNat 32 k.val :=
    broadcastInDim_oneRow_apply bcast_S1x10_S50000x10_0_1 _ n k
  have h0 : stHot (F := Ideal) y (ix2 n k)
      = (((IntOp.cmpi .eq (y (ix1 n)) (BitVec.ofNat 32 k.val)).toNat : ℝ) : EReal) := by
    unfold stHot
    show (((IntOp.cmpi .eq
        (broadcastInDim S50000x10 ![0, 1] bcast_S50000x1_S50000x10_0_1
          (broadcastInDim S50000x1 ![0] bcast_S50000_S50000x1_0 y) (ix2 n k))
        (broadcastInDim S50000x10 ![0, 1] bcast_S1x10_S50000x10_0_1 (iotaInDim S1x10 32 1) (ix2 n k))).toNat : ℝ) : EReal) = _
    rw [hy, hk]
  rw [h0]
  unfold Cert.Gcn.hot
  by_cases hc : y (ix1 n) = BitVec.ofNat 32 k.val
  · rw [if_pos hc]
    have h1 : IntOp.cmpi .eq (y (ix1 n)) (BitVec.ofNat 32 k.val) = 1#1 := by
      unfold IntOp.cmpi; rw [hc]; simp
    rw [h1]; simp
  · rw [if_neg hc]
    have h1 : IntOp.cmpi .eq (y (ix1 n)) (BitVec.ofNat 32 k.val) = 0#1 := by
      unfold IntOp.cmpi
      show BitVec.ofBool (y (ix1 n) == BitVec.ofNat 32 k.val) = 0#1
      rw [beq_eq_false_iff_ne.mpr hc]; rfl
    rw [h1]; simp

/-- The joined-row stage is the joined row. -/
theorem cat_apply (z : (⟨S50000x128, .f32⟩ : BufTy).Contents (Elt Ideal)) (y : (⟨S50000, .i32⟩ : BufTy).Contents (Elt Ideal)) (n : Fin 50000) (k : Fin 138) :
    stCat (F := Ideal) z y (ix2 n k) = Cert.Gcn.catz z y n k := by
  unfold stCat Cert.Gcn.catz
  by_cases h : k.val < 128
  · rw [dif_pos h]
    exact concatenate_pair_apply_left (t := S50000x138) (s₁ := S50000x128) (s₂ := S50000x10) (1 : Fin 2) z (stHot (F := Ideal) y) concatenates_S50000x128_S50000x10_S50000x138_d1
      (ix2 n k) rfl (ix2 n (⟨k.val, h⟩ : Fin 128)) (fun b => match b with | ⟨0, _⟩ => rfl | ⟨1, _⟩ => rfl)
  · rw [dif_neg h]
    refine (concatenate_pair_apply_right (t := S50000x138) (s₁ := S50000x128) (s₂ := S50000x10) (1 : Fin 2) z (stHot (F := Ideal) y) concatenates_S50000x128_S50000x10_S50000x138_d1
      (ix2 n k) rfl rfl (ix2 n (⟨k.val - 128, by have := k.isLt; omega⟩ : Fin 10)) (fun b hb => ?_) ?_).trans (hot_apply y n _)
    · match b with
      | ⟨0, _⟩ => rfl
      | ⟨1, _⟩ => exact absurd rfl hb
    · show k.val - 128 + 128 = k.val
      omega

/-- The hidden stage is the hidden layer as one sum over the joined columns. -/
theorem hid_apply (z : (⟨S50000x128, .f32⟩ : BufTy).Contents (Elt Ideal)) (y : (⟨S50000, .i32⟩ : BufTy).Contents (Elt Ideal)) (W1 : (⟨S128x138, .f32⟩ : BufTy).Contents (Elt Ideal)) (b1 : (⟨S128, .f32⟩ : BufTy).Contents (Elt Ideal)) (n : Fin 50000) (j : Fin 128) :
    stHid (F := Ideal) z y W1 b1 (ix2 n j) = Cert.Gcn.hidJ z y W1 b1 n j := by
  unfold stHid Cert.Gcn.hidJ
  rw [maximumf_apply, addf_apply, zero_splat_apply, row_down_rows_apply]
  refine congrArg (fun t => max (t + b1 (ix1 j)) 0) ?_
  refine (PlainDot.dotGeneral_apply (M := 50000) (K := 138) (N := 128) none .single (stCat (F := Ideal) z y)
    (transpose S138x128 [1, 0] W1 transposes_S128x138_S138x128_1_0) n j).trans ?_
  refine Finset.sum_congr rfl fun k _ => ?_
  rw [cat_apply, transpose_ix2_apply]

/-- The feature stage is the feature layer over the hidden layer. -/
theorem feat_apply (z : (⟨S50000x128, .f32⟩ : BufTy).Contents (Elt Ideal)) (y : (⟨S50000, .i32⟩ : BufTy).Contents (Elt Ideal)) (W1 : (⟨S128x138, .f32⟩ : BufTy).Contents (Elt Ideal)) (b1 : (⟨S128, .f32⟩ : BufTy).Contents (Elt Ideal)) (W2 : (⟨S96x128, .f32⟩ : BufTy).Contents (Elt Ideal)) (b2 : (⟨S96, .f32⟩ : BufTy).Contents (Elt Ideal)) (n : Fin 50000) (k : Fin 96) :
    stFeat (F := Ideal) z y W1 b1 W2 b2 (ix2 n k) = Cert.Gcn.feat (Cert.Gcn.hidJ z y W1 b1) W2 b2 n k := by
  unfold stFeat Cert.Gcn.feat
  rw [addf_apply, row_down_rows_apply]
  refine congrArg (fun t => t + b2 (ix1 k)) ?_
  refine (PlainDot.dotGeneral_apply (M := 50000) (K := 128) (N := 96) none .single (stHid (F := Ideal) z y W1 b1)
    (transpose S128x96 [1, 0] W2 transposes_S96x128_S128x96_1_0) n k).trans ?_
  refine Finset.sum_congr rfl fun j _ => ?_
  rw [hid_apply, transpose_ix2_apply]

/-- The projected stage is the convolution's linear part over the feature layer. -/
theorem proj_apply (z : (⟨S50000x128, .f32⟩ : BufTy).Contents (Elt Ideal)) (y : (⟨S50000, .i32⟩ : BufTy).Contents (Elt Ideal)) (W1 : (⟨S128x138, .f32⟩ : BufTy).Contents (Elt Ideal)) (b1 : (⟨S128, .f32⟩ : BufTy).Contents (Elt Ideal)) (W2 : (⟨S96x128, .f32⟩ : BufTy).Contents (Elt Ideal)) (b2 : (⟨S96, .f32⟩ : BufTy).Contents (Elt Ideal)) (gW : (⟨S96x96, .f32⟩ : BufTy).Contents (Elt Ideal)) (n : Fin 50000) (c : Fin 96) :
    stProj (F := Ideal) z y W1 b1 W2 b2 gW (ix2 n c) = (Cert.Gcn.proj (Cert.Gcn.feat (Cert.Gcn.hidJ z y W1 b1) W2 b2) gW) n c := by
  unfold stProj Cert.Gcn.proj
  refine (PlainDot.dotGeneral_apply (M := 50000) (K := 96) (N := 96) none .single (stFeat (F := Ideal) z y W1 b1 W2 b2)
    (transpose S96x96 [1, 0] gW transposes_S96x96_S96x96_1_0) n c).trans ?_
  refine Finset.sum_congr rfl fun k _ => ?_
  rw [feat_apply, transpose_ix2_apply]

/-! ## The edges -/

/-- One row of the edge list followed by 0 … 49999 is that row of the joined list. -/
theorem rowJ_apply (ei : (⟨S2x800000, .i32⟩ : BufTy).Contents (Elt Ideal)) (row : Fin 2) (hs : S2x800000.Slices ![row.val, 0] S1x800000) (e : Fin 850000) :
    concatenate S850000 0 [⟨S800000, (shapeCast _ (extractStridedSlice S1x800000 ![row.val, 0] ei hs) shapeCasts_S1x800000_S800000)⟩,
        ⟨S50000, (iotaInDim S50000 32 0)⟩] concatenates_S800000_S50000_S850000_d0 (ix1 e)
      = Cert.Gcn.joined ei row e := by
  unfold Cert.Gcn.joined
  by_cases h : e.val < 800000
  · rw [dif_pos h]
    refine (concatenate_pair_apply_left (t := S850000) (s₁ := S800000) (s₂ := S50000) (0 : Fin 1) _ (iotaInDim S50000 32 0)
      concatenates_S800000_S50000_S850000_d0 (ix1 e) rfl (ix1 (⟨e.val, h⟩ : Fin 800000)) (fun b => match b with | ⟨0, _⟩ => rfl)).trans ?_
    refine (shapeCast_1a_a_apply _ shapeCasts_S1x800000_S800000 (⟨e.val, h⟩ : Fin 800000)).trans ?_
    exact slice2_axis0_apply row.val ei hs (0 : Fin 1) (⟨e.val, h⟩ : Fin 800000) row (Nat.add_zero _).symm
  · rw [dif_neg h]
    exact concatenate_pair_apply_right (t := S850000) (s₁ := S800000) (s₂ := S50000) (0 : Fin 1) _ (iotaInDim S50000 32 0)
      concatenates_S800000_S50000_S850000_d0 (ix1 e) rfl rfl (ix1 (⟨e.val - 800000, by have := e.isLt; omega⟩ : Fin 50000))
      (fun b hb => match b with | ⟨0, _⟩ => absurd rfl hb) (by show e.val - 800000 + 800000 = e.val; omega)

/-- The joined sources are row 0 of the joined list. -/
theorem srcJ_apply (ei : (⟨S2x800000, .i32⟩ : BufTy).Contents (Elt Ideal)) (e : Fin 850000) : stSrcJ (F := Ideal) ei (ix1 e) = Cert.Gcn.joined ei (0 : Fin 2) e :=
  rowJ_apply ei (0 : Fin 2) slices_S2x800000_S1x800000_0_0 e

/-- The joined destinations are row 1 of the joined list. -/
theorem dstJ_apply (ei : (⟨S2x800000, .i32⟩ : BufTy).Contents (Elt Ideal)) (e : Fin 850000) : stDstJ (F := Ideal) ei (ix1 e) = Cert.Gcn.joined ei (1 : Fin 2) e :=
  rowJ_apply ei (1 : Fin 2) slices_S2x800000_S1x800000_1_0 e

/-- The wrapped stage wraps every entry. -/
theorem wrap_apply (v : (⟨S850000, .i32⟩ : BufTy).Contents (Elt Ideal)) (e : Fin 850000) :
    stWrap (F := Ideal) v (ix1 e) = Cert.Gcn.wrap (v (ix1 e)) := rfl

/-- Entry (e, 0) of a wrapped index vector placed as a column. -/
theorem wrapCol_apply (v : (⟨S850000, .i32⟩ : BufTy).Contents (Elt Ideal)) (e : Fin 850000) :
    broadcastInDim S850000x1 ![0] bcast_S850000_S850000x1_0 (stWrap (F := Ideal) v) (ix2 e (0 : Fin 1)) = Cert.Gcn.wrap (v (ix1 e)) :=
  column_apply bcast_S850000_S850000x1_0 _ e 0

/-- Where the joined destinations, placed as a column, send update e. -/
theorem dest_dstJ (ei : (⟨S2x800000, .i32⟩ : BufTy).Contents (Elt Ideal)) (e : Fin 850000) :
    RowScatter.dest (broadcastInDim S850000x1 ![0] bcast_S850000_S850000x1_0 (stDstJ (F := Ideal) ei)) e
      = (Cert.Gcn.joined ei (1 : Fin 2) e).toInt := by
  unfold RowScatter.dest
  rw [column_apply bcast_S850000_S850000x1_0 _ e 0, dstJ_apply]

/-- The updates sent to node d are the joined edges into d. -/
theorem filter_dstJ (ei : (⟨S2x800000, .i32⟩ : BufTy).Contents (Elt Ideal)) (d : Fin 50000) :
    (Finset.univ.filter fun e : Fin 850000 =>
        RowScatter.dest (broadcastInDim S850000x1 ![0] bcast_S850000_S850000x1_0 (stDstJ (F := Ideal) ei)) e = (d.val : Int))
      = Cert.Gcn.intoJ ei d := by
  unfold Cert.Gcn.intoJ
  exact Finset.filter_congr fun e _ => by rw [dest_dstJ]

/-- The degree stage is the degree counted over the joined list. -/
theorem deg_apply (ei : (⟨S2x800000, .i32⟩ : BufTy).Contents (Elt Ideal)) (d : Fin 50000) : stDeg (F := Ideal) ei (ix1 d) = Cert.Gcn.degJ ei d := by
  unfold stDeg Cert.Gcn.degJ
  refine (RowScatter.cells_apply (N := 50000) (E := 850000) scatter_S50000_S850000x1_S850000_n_0_0_1_wf _ _ _ d).trans ?_
  rw [zero_splat_apply, filter_dstJ]
  rfl

/-- The normalising stage is 1/√degree over the joined list. -/
theorem dinv_apply (ei : (⟨S2x800000, .i32⟩ : BufTy).Contents (Elt Ideal)) (d : Fin 50000) : stDinv (F := Ideal) ei (ix1 d) = Cert.Gcn.dinvJ ei d := by
  -- the select, the comparison and the inverse square root act entry by entry, whatever the vectors are
  have h : ∀ (g zv : FVec Ideal S50000 .f32),
      select (cmpf (F := Ideal) .ogt g zv) (Host.rsqrt g) zv (ix1 d)
        = Scalar.select (Ideal.cmp .ogt (g (ix1 d)) (zv (ix1 d))) (Ideal.rsqrt (g (ix1 d))) (zv (ix1 d)) := fun _ _ => rfl
  unfold stDinv Cert.Gcn.dinvJ
  rw [h, zero_splat_apply, deg_apply]

/-- The per-edge factor is the product of the two ends' normalising factors. -/
theorem norm_apply (ei : (⟨S2x800000, .i32⟩ : BufTy).Contents (Elt Ideal)) (e : Fin 850000) :
    stNorm (F := Ideal) ei (ix1 e)
      = Cert.Gcn.dinvJ ei (Cert.Gcn.rowOf (Cert.Gcn.joined ei (0 : Fin 2) e)) * Cert.Gcn.dinvJ ei (Cert.Gcn.rowOf (Cert.Gcn.joined ei (1 : Fin 2) e)) := by
  unfold stNorm
  rw [mulf_apply]
  have hg : ∀ v : (⟨S850000, .i32⟩ : BufTy).Contents (Elt Ideal),
      Host.gather gather_S50000_S850000x1_S850000_n_0_n_n_0_1_1 (stDinv (F := Ideal) ei)
          (broadcastInDim S850000x1 ![0] bcast_S850000_S850000x1_0 (stWrap (F := Ideal) v)) (ix1 e)
        = Cert.Gcn.dinvJ ei (Cert.Gcn.rowOf (v (ix1 e))) := fun v => by
    refine (Cert.Lib.EdgeGather.flat_apply (N := 50000) (E := 850000) (by decide) gather_S50000_S850000x1_S850000_n_0_n_n_0_1_1_wf
      (stDinv (F := Ideal) ei) _ e).trans ?_
    rw [wrapCol_apply, dinv_apply]
    rfl
  rw [hg, hg, srcJ_apply, dstJ_apply]

/-- The message stage: the source's projected row scaled by the edge's factor. -/
theorem msg_apply (z : (⟨S50000x128, .f32⟩ : BufTy).Contents (Elt Ideal)) (y : (⟨S50000, .i32⟩ : BufTy).Contents (Elt Ideal)) (W1 : (⟨S128x138, .f32⟩ : BufTy).Contents (Elt Ideal)) (b1 : (⟨S128, .f32⟩ : BufTy).Contents (Elt Ideal)) (W2 : (⟨S96x128, .f32⟩ : BufTy).Contents (Elt Ideal)) (b2 : (⟨S96, .f32⟩ : BufTy).Contents (Elt Ideal)) (gW : (⟨S96x96, .f32⟩ : BufTy).Contents (Elt Ideal)) (ei : (⟨S2x800000, .i32⟩ : BufTy).Contents (Elt Ideal)) (e : Fin 850000) (c : Fin 96) :
    stMsg (F := Ideal) z y W1 b1 W2 b2 gW ei (ix2 e c)
      = (Cert.Gcn.proj (Cert.Gcn.feat (Cert.Gcn.hidJ z y W1 b1) W2 b2) gW) (Cert.Gcn.rowOf (Cert.Gcn.joined ei (0 : Fin 2) e)) c
        * (Cert.Gcn.dinvJ ei (Cert.Gcn.rowOf (Cert.Gcn.joined ei (0 : Fin 2) e)) * Cert.Gcn.dinvJ ei (Cert.Gcn.rowOf (Cert.Gcn.joined ei (1 : Fin 2) e))) := by
  unfold stMsg
  rw [mulf_apply, column_across_apply, column_apply, norm_apply]
  refine congrArg (fun t : EReal => t * (Cert.Gcn.dinvJ ei (Cert.Gcn.rowOf (Cert.Gcn.joined ei (0 : Fin 2) e)) * Cert.Gcn.dinvJ ei (Cert.Gcn.rowOf (Cert.Gcn.joined ei (1 : Fin 2) e)))) ?_
  refine (Cert.Lib.EdgeGather.row_apply (N := 50000) (E := 850000) (C := 96) (by decide) gather_S50000x96_S850000x1_S850000x96_1_0_n_n_0_1_196_wf
    (stProj (F := Ideal) z y W1 b1 W2 b2 gW) _ e c).trans ?_
  rw [wrapCol_apply, srcJ_apply, proj_apply]
  rfl

/-- The aggregate stage is the aggregate over the joined list. -/
theorem agg_apply (z : (⟨S50000x128, .f32⟩ : BufTy).Contents (Elt Ideal)) (y : (⟨S50000, .i32⟩ : BufTy).Contents (Elt Ideal)) (W1 : (⟨S128x138, .f32⟩ : BufTy).Contents (Elt Ideal)) (b1 : (⟨S128, .f32⟩ : BufTy).Contents (Elt Ideal)) (W2 : (⟨S96x128, .f32⟩ : BufTy).Contents (Elt Ideal)) (b2 : (⟨S96, .f32⟩ : BufTy).Contents (Elt Ideal)) (gW : (⟨S96x96, .f32⟩ : BufTy).Contents (Elt Ideal)) (ei : (⟨S2x800000, .i32⟩ : BufTy).Contents (Elt Ideal)) (d : Fin 50000) (c : Fin 96) :
    stAgg (F := Ideal) z y W1 b1 W2 b2 gW ei (ix2 d c) = Cert.Gcn.aggJ ei (Cert.Gcn.proj (Cert.Gcn.feat (Cert.Gcn.hidJ z y W1 b1) W2 b2) gW) d c := by
  unfold stAgg Cert.Gcn.aggJ
  refine (RowScatter.rows_apply (N := 50000) (E := 850000) (C := 96) scatter_S50000x96_S850000x1_S850000x96_1_0_0_1_wf _ _ _ d c).trans ?_
  rw [zero_splat_apply, filter_dstJ]
  refine congrArg (fun t : EReal => 0 + t) ?_
  exact Finset.sum_congr rfl fun e _ => msg_apply z y W1 b1 W2 b2 gW ei e c

/-! ## The read-out -/

/-- The result stage is the read-out over the aggregate. -/
theorem out_apply (z : (⟨S50000x128, .f32⟩ : BufTy).Contents (Elt Ideal)) (y : (⟨S50000, .i32⟩ : BufTy).Contents (Elt Ideal)) (ei : (⟨S2x800000, .i32⟩ : BufTy).Contents (Elt Ideal)) (W1 : (⟨S128x138, .f32⟩ : BufTy).Contents (Elt Ideal)) (b1 : (⟨S128, .f32⟩ : BufTy).Contents (Elt Ideal)) (W2 : (⟨S96x128, .f32⟩ : BufTy).Contents (Elt Ideal)) (b2 : (⟨S96, .f32⟩ : BufTy).Contents (Elt Ideal)) (gW : (⟨S96x96, .f32⟩ : BufTy).Contents (Elt Ideal)) (gb : (⟨S96, .f32⟩ : BufTy).Contents (Elt Ideal)) (Wf : (⟨S256x96, .f32⟩ : BufTy).Contents (Elt Ideal)) (bf : (⟨S256, .f32⟩ : BufTy).Contents (Elt Ideal)) (n : Fin 50000) (j : Fin 256) :
    Cert.RefRun.stOut (F := Ideal) z y ei W1 b1 W2 b2 gW gb Wf bf (ValueIdx.ix2 n j)
      = Cert.Gcn.out (Cert.Gcn.aggJ ei (Cert.Gcn.proj (Cert.Gcn.feat (Cert.Gcn.hidJ z y W1 b1) W2 b2) gW)) gb Wf bf n j := by
  unfold stOut Cert.Gcn.out
  rw [addf_apply, row_down_rows_apply]
  refine congrArg (fun t => t + bf (ix1 j)) ?_
  refine (PlainDot.dotGeneral_apply (M := 50000) (K := 96) (N := 256) none .single _
    (transpose S96x256 [1, 0] Wf transposes_S256x96_S96x256_1_0) n j).trans ?_
  refine Finset.sum_congr rfl fun k _ => ?_
  rw [maximumf_apply, addf_apply, zero_splat_apply, row_down_rows_apply, agg_apply, transpose_ix2_apply]

end Cert.RefValue

end
-- ==== Proof.lean ====
/-
  The certificate of a two-kernel graph-convolution pipeline against its plain reference.

  Both programs compute, for 50000 nodes with 128 features and a class among 10, and 800000 directed edges: a two-layer
  perceptron on the features joined with the class's one-hot code; its 96 outputs projected by gW; a graph convolution —
  each node sums the projected rows of the sources of the edges into it and its own, each summand normalised by the
  inverse square roots of the two ends' degrees (edges in, plus one for the node's own loop) —; relu after adding gb; a
  linear read-out to 256 columns.

  The reference appends the 50000 loops to the edge list and runs one gather, one product with the two gathered
  normalising factors and one accumulating scatter over the 850000 joined edges. The kernel computes the perceptron and
  the projection in a first region (blocks of 5000 rows, the one-hot product apart from the features' product, the
  projection padded to 128 columns), lets the host scale the rows by dinv, gather and scatter over the 800000 edges only,
  add the node's own scaled row and scale by dinv again, and computes the read-out in a second region over the padded
  columns. At the ideal values the two are one function of the arguments: the 138-column sum splits, the loops' summands
  are the separate term, the padding meets zeros, and dinv — a finite non-negative number at every node whatever the
  data — distributes over the sum of extended reals. No entry of the data needs to be finite.

  The frames of the two kernel programs are the generated ones; the reference's frame is its run with the result
  dropped; the idealization rewrote nothing, so `preserves` is trivial.
-/
import proofs.«182204_j87729001988299_2_alg».proof.Defs
import proofs.«182204_j87729001988299_2_alg».proof.Proof.Gen.Kernel
import proofs.«182204_j87729001988299_2_alg».proof.Proof.Gen.Kernel.Skeleton
import proofs.«182204_j87729001988299_2_alg».proof.Proof.Gen.Kernel.Launch
import proofs.«182204_j87729001988299_2_alg».proof.Proof.Gen.Kernel.Points
import proofs.«182204_j87729001988299_2_alg».proof.Proof.Gen.Kernel.Frame
import proofs.«182204_j87729001988299_2_alg».proof.Proof.Gen.KernelIdeal
import proofs.«182204_j87729001988299_2_alg».proof.Proof.Gen.KernelIdeal.Skeleton
import proofs.«182204_j87729001988299_2_alg».proof.Proof.Gen.KernelIdeal.Launch
import proofs.«182204_j87729001988299_2_alg».proof.Proof.Gen.KernelIdeal.Points
import proofs.«182204_j87729001988299_2_alg».proof.Proof.Gen.KernelIdeal.Frame
import proofs.«182204_j87729001988299_2_alg».proof.Proof.Gen.ReferenceIdeal
import proofs.«182204_j87729001988299_2_alg».proof.Proof.Gen.Pre_finite_inputs
import proofs.«182204_j87729001988299_2_alg».proof.Proof.GcnLaw
import proofs.«182204_j87729001988299_2_alg».proof.Proof.KernRun
import proofs.«182204_j87729001988299_2_alg».proof.Proof.KernValue
import proofs.«182204_j87729001988299_2_alg».proof.Proof.RefRun
import proofs.«182204_j87729001988299_2_alg».proof.Proof.RefValue
import Idealize.ShloMosaic.Adequacy
import Idealize.ShloMosaic.Init

noncomputable section

namespace Cert.Proof

open Idealize.ShloMosaic Idealize.ShloMosaic.ValueIdx Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.RefRun.run (F := Ideal) m ρ)

/-- From memories agreeing on the arguments both programs end with one result array: entry (n, j) of the kernel's is the
    first arrangement of the arguments, of the reference's the second, and the two arrangements are one function. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W12 m ρ c (Proc.devRef .tc Cert.KernelIdeal.main_v51),
    Cert.KernRun.run_value (F := Ideal) m ρ, ?_⟩
  refine (θ_run Cert.ReferenceIdeal.defs _ _).mono (fun _ h c => ⟨(h c).1.trans ?_, (h c).2⟩)
    (Cert.RefRun.run (F := Ideal) m' ρ')
  obtain ⟨a0, a1, a2, a3, a4, a5, a6, a7, a8, a9, a10⟩ := hagree c
  rw [a0, a1, a2, a3, a4, a5, a6, a7, a8, a9, a10]
  funext i
  obtain ⟨n, j, rfl⟩ : ∃ (n : Fin 50000) (j : Fin 256), i = ix2 n j := ⟨i 0, i 1, eq_ix2 i⟩
  rw [Cert.RefValue.out_apply, Cert.Gcn.hidJ_eq, Cert.Gcn.aggJ_eq]
  exact (Cert.KernValue.value m ρ c n j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
